-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S1024x3072 : Shape := ⟨2, ![1024, 3072]⟩
abbrev S8192x1024 : Shape := ⟨2, ![8192, 1024]⟩
abbrev S8192x3072 : Shape := ⟨2, ![8192, 3072]⟩
abbrev S512x1024 : Shape := ⟨2, ![512, 1024]⟩
abbrev S512x3072 : Shape := ⟨2, ![512, 3072]⟩
abbrev S4x2048x3072 : Shape := ⟨3, ![4, 2048, 3072]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S1x256 : Shape := ⟨2, ![1, 256]⟩
abbrev S1x256x1 : Shape := ⟨3, ![1, 256, 1]⟩

abbrev nBuf : Space → Nat
  | .hbm => 9
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x3072, .f32⟩
  | .hbm, ⟨5, _⟩ => ⟨S8192x1024, .f32⟩
  | .hbm, ⟨6, _⟩ => ⟨S8192x3072, .f32⟩
  | .hbm, ⟨7, _⟩ => ⟨S4x2048x3072, .f32⟩
  | .hbm, ⟨8, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .f32⟩
  | .local _ .vmem, ⟨3, _⟩ => ⟨S512x3072, .f32⟩
  | .local _ .vmem, ⟨4, _⟩ => ⟨S512x3072, .f32⟩
  | .local _ .vmem, ⟨5, _⟩ => ⟨S1x256x1024, .f32⟩
  | .local _ .vmem, ⟨6, _⟩ => ⟨S1x256x1024, .f32⟩
  | .local _ .vmem, ⟨7, _⟩ => ⟨S1x2048x1024, .f32⟩
  | .local _ .vmem, ⟨8, _⟩ => ⟨S1x2048x1024, .f32⟩
  | .local _ .vmem, ⟨9, _⟩ => ⟨S1x2048x1024, .f32⟩
  | .local _ .vmem, ⟨10, _⟩ => ⟨S1x2048x1024, .f32⟩
  | .local _ .vmem, ⟨11, _⟩ => ⟨S1x256x1024, .f32⟩
  | .local _ .vmem, ⟨12, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S1024x1024_S1024x1024_S1024x1024_S1024x3072_d1 : Shape.Concatenates [S1024x1024, S1024x1024, S1024x1024] S1024x3072 1
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  shapeCasts_S8192x3072_S4x2048x3072 : S8192x3072.ShapeCasts S4x2048x3072
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S1x256x1024 : S1x256x1024.ShapeCasts S1x256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S1x2048x1024 : S1x2048x1024.ShapeCasts S1x2048x1024
  reduces_S1x256x2048_S1x256 : S1x256x2048.Reduces [2] S1x256
  shapeCasts_S1x256_S1x256x1 : S1x256.ShapeCasts S1x256x1
  broadcasts_S1x256x1_S1x256x2048 : S1x256x1.Broadcasts S1x256x2048
  dot_S512x1024_S1024x3072_S512x3072_1_0_0_1_n_n_wf : DotDims.WF S512x1024 S1024x3072 S512x3072 [1] [0] [0] [1] [] []
  dot_S1x256x1024_S1x2048x1024_S1x256x2048_2_2_1_1_0_0_wf : DotDims.WF S1x256x1024 S1x2048x1024 S1x256x2048 [2] [2] [1] [1] [0] [0]
  dot_S1x256x2048_S1x2048x1024_S1x256x1024_2_1_1_2_0_0_wf : DotDims.WF S1x256x2048 S1x2048x1024 S1x256x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .f32 = 32 ∨ (Rect.block (s := S1024x3072) S1024x3072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S8192x3072.size a
  hwx0_2 : ∀ i : grid0.Coords, EltTy.bits .f32 = 32 ∨ (Rect.block (s := S8192x3072) S512x3072.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x3072.size a
  hwx1_0 : ∀ i : grid1.Coords, EltTy.bits .f32 = 32 ∨ (Rect.block (s := S4x2048x3072) S1x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x3072.size a
  hwx1_1 : ∀ i : grid1.Coords, EltTy.bits .f32 = 32 ∨ (Rect.block (s := S4x2048x3072) S1x2048x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x3072.size a
  hwx1_2 : ∀ i : grid1.Coords, EltTy.bits .f32 = 32 ∨ (Rect.block (s := S4x2048x3072) S1x2048x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S4x2048x1024.size a
  hwx1_3 : ∀ i : grid1.Coords, EltTy.bits .f32 = 32 ∨ (Rect.block (s := S4x2048x1024) S1x256x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1x256x1024_S1x2048x1024_S1x256x2048_2_2_1_1_0_0 : DotDims S1x256x1024 S1x2048x1024 S1x256x2048 where
  lhsContracting := [2]
  rhsContracting := [2]
  lhsNonContracting := [1]
  rhsNonContracting := [1]
  lhsBatch := [0]
  rhsBatch := [0]
  wf := dot_S1x256x1024_S1x2048x1024_S1x256x2048_2_2_1_1_0_0_wf
def dot_S1x256x2048_S1x2048x1024_S1x256x1024_2_1_1_2_0_0 : DotDims S1x256x2048 S1x2048x1024 S1x256x1024 where
  lhsContracting := [2]
  rhsContracting := [1]
  lhsNonContracting := [1]
  rhsNonContracting := [2]
  lhsBatch := [0]
  rhsBatch := [0]
  wf := dot_S1x256x2048_S1x2048x1024_S1x256x1024_2_1_1_2_0_0_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S_, .f32⟩
  | .hbm, ⟨15, _⟩ => ⟨S4x2048, .f32⟩
  | .hbm, ⟨16, _⟩ => ⟨S4x2048, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S4x2048x2048, .f32⟩
  | .hbm, ⟨25, _⟩ => ⟨S4x2048x2048, .f32⟩
  | .hbm, ⟨26, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Kernel.Body0.lean ====
/-
  The projection region (the first kernel launch), at any float instance, stated at a PARAMETER `V`: the contents of
  the core's buffers when the region is entered.

  The grid has 16 points; point `t` stages rows 512·t … 512·t+511 of the flattened activations (window 0), the whole
  fused weight matrix (window 1, staged once) and writes back rows 512·t … of the fused projections (window 2).
  The body loads both input blocks whole, forms one matrix product into a zero accumulator and stores it over the whole
  output block: so after the body the output buffer is that product of the two input blocks (`projOut`), and the
  input buffers are as they were.
-/
import proofs.«163901_j65481071395957_2_alg».proof.Proof.Gen.Kernel.Launch
import proofs.«163901_j65481071395957_2_alg».proof.Proof.Gen.Kernel.Skeleton
import proofs.«163901_j65481071395957_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weights' staging buffer holds the whole matrix at every point, although it is fetched at the first only: its
    block index never moves. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: each buffer whole -/

abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rO : Rect S512x3072 := Rect.unit (s := S512x3072) ![0, 0] S512x3072.size inb_S512x3072_S512x3072_0_0

/-- The output buffer after the body: its one store, of the product of the two loaded blocks. -/
def projOut (x0 : Vec F S512x1024 .f32) (x1 : Vec F S1024x3072 .f32) : Vec F S512x3072 .f32 :=
  View.canon [⟨rO, k0_pay1 (View.ld x0 rX) (View.ld x1 rW)⟩]

/-- The one store covers the buffer. -/
theorem projCover (p0 : Vec F S512x3072 .f32) (y : S512x3072.Idx) :
    ∃ pc ∈ ([⟨rO, p0⟩] : List (View.Piece (Elt F) S512x3072 .f32)), y ∈ pc.1.set :=
  View.cover_of_tiled [⟨rO, p0⟩] S512x3072.size (by rfl) y

/-! ## The body's triple -/

set_option maxHeartbeats 1000000 in
/-- The body on whole staging memrefs, the inputs' at contents `x0`, `x1` and the output's at anything, runs to the
    continuation holding the inputs' as they were and the output's at `projOut x0 x1`. -/
theorem proj_run (c : Dev nD) (E : Set ℕ) (i : grid0.Coords) (arg1 : Memref sig .tc .vmem S512x1024 .f32) (harg1 : arg1.IsWhole)
    (arg2 : Memref sig .tc .vmem S1024x3072 .f32) (harg2 : arg2.IsWhole) (arg3 : Memref sig .tc .vmem S512x3072 .f32) (harg3 : arg3.IsWhole)
    (x0 : Vec F S512x1024 .f32) (x1 : Vec F S1024x3072 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (projOut x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-! ## The pipeline's proof data -/

/-- The proof data of the projection pipeline on core `c`: the arrays as the region finds them; after the body at point
    `t` each input buffer at its block and the output buffer at the product of the two blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => projOut (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = projOut (blk0 V c 0 t) (blk0 V c 1 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `proj_run` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (proj_run c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Body1.lean ====
/-
  The attention region (the second kernel launch), at any float instance, stated at a PARAMETER `V`: the contents of
  the core's buffers when the region is entered.

  The grid is 4 × 8: point (b, qi) stages, all from ONE array (the fused projections, [4, 2048, 3072]), the query block
  (rows 256·qi … of batch b, features 0 … 1023; window 0), the key block (all 2048 rows of batch b, features 1024 … 2047;
  window 1) and the value block (all rows, features 2048 … 3071; window 2), and writes back rows 256·qi … of batch b of
  the result (window 3). The body loads the three input blocks whole, computes scores, a softmax over the keys and the
  weighted sum of the values, and stores it over the whole output block: after the body the output buffer is that
  function of the three input blocks (`attnOut`) and the input buffers are as they were.
  Since the three input windows read one array, the core holds that array in three shares, one per window: the left
  half of the whole, and the two halves of its right half.
-/
import proofs.«163901_j65481071395957_2_alg».proof.Proof.Gen.Kernel.Launch
import proofs.«163901_j65481071395957_2_alg».proof.Proof.Gen.Kernel.Skeleton
import proofs.«163901_j65481071395957_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The queries' staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The keys' staging buffer holds its block at every point: it is fetched when the batch index moves, and between
    two fetches the block index does not move. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The values' staging buffer likewise. -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: each buffer whole -/

abbrev rQ : Rect S1x256x1024 := Rect.unit (s := S1x256x1024) ![0, 0, 0] S1x256x1024.size inb_S1x256x1024_S1x256x1024_0_0_0
abbrev rK : Rect S1x2048x1024 := Rect.unit (s := S1x2048x1024) ![0, 0, 0] S1x2048x1024.size inb_S1x2048x1024_S1x2048x1024_0_0_0

/-- The output buffer after the body: its one store, of the attention of the three loaded blocks. -/
def attnOut (x0 : Vec F S1x256x1024 .f32) (x1 : Vec F S1x2048x1024 .f32) (x2 : Vec F S1x2048x1024 .f32) : Vec F S1x256x1024 .f32 :=
  View.canon [⟨rQ, k1_pay1 (View.ld x0 rQ) (View.ld x1 rK) (View.ld x2 rK)⟩]

/-- The one store covers the buffer. -/
theorem attnCover (p0 : Vec F S1x256x1024 .f32) (y : S1x256x1024.Idx) :
    ∃ pc ∈ ([⟨rQ, p0⟩] : List (View.Piece (Elt F) S1x256x1024 .f32)), y ∈ pc.1.set :=
  View.cover_of_tiled [⟨rQ, p0⟩] S1x256x1024.size (by rfl) y

/-! ## The body's triple -/

set_option maxHeartbeats 1000000 in
/-- The body on whole staging memrefs, the inputs' at contents `x0`, `x1`, `x2` and the output's at anything, runs to
    the continuation holding the inputs' as they were and the output's at `attnOut x0 x1 x2`. -/
theorem attn_run (c : Dev nD) (E : Set ℕ) (i : grid1.Coords) (arg2 : Memref sig .tc .vmem S1x256x1024 .f32) (harg2 : arg2.IsWhole)
    (arg3 : Memref sig .tc .vmem S1x2048x1024 .f32) (harg3 : arg3.IsWhole) (arg4 : Memref sig .tc .vmem S1x2048x1024 .f32) (harg4 : arg4.IsWhole)
    (arg5 : Memref sig .tc .vmem S1x256x1024 .f32) (harg5 : arg5.IsWhole)
    (x0 : Vec F S1x256x1024 .f32) (x1 : Vec F S1x2048x1024 .f32) (x2 : Vec F S1x2048x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (attnOut x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (attnCover _)

/-! ## The pipeline's proof data -/

/-- The three shares the one input array is held in, one per input window; the output's array is held whole. -/
def qshare : Fin cfg1.W → PosShare TreeShare
  | ⟨0, _⟩ => fullShare.left
  | ⟨1, _⟩ => fullShare.right.left
  | ⟨2, _⟩ => fullShare.right.right
  | ⟨_ + 3, _⟩ => fullShare

/-- The proof data of the attention pipeline on core `c`: the arrays as the region finds them; after the body at point
    `t` each input buffer at its block and the output buffer at the attention of the three blocks; the invariant is the
    scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => attnOut (blk1 V c 0 t) (blk1 V c 1 t) (blk1 V c 2 t)
  Φ _ := Pipeline.ΦA spec1 c
  q := qshare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = attnOut (blk1 V c 0 t) (blk1 V c 1 t) (blk1 V c 2 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `attn_run` applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (attn_run c Set.univ (grid1.coords t) _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Shares.lean ====
/-
  The attention region's arrays, in and out of the core's unscoped buffers.

  The region's four windows sit on TWO buffers: the fused projections (read by the query, key and value windows) and
  the result. At entry the core holds each buffer whole; the projections' buffer is split into three shares, one per
  input window (the left half, and the two halves of the right half). At exit the three shares — the input windows never
  write, so all three still hold the entry contents — are joined back into the whole.
-/
import proofs.«163901_j65481071395957_2_alg».proof.Proof.Gen.Kernel.Launch
import proofs.«163901_j65481071395957_2_alg».proof.Proof.Gen.Kernel.Skeleton
import proofs.«163901_j65481071395957_2_alg».proof.Proof.Gen.Kernel.Points
import proofs.«163901_j65481071395957_2_alg».proof.Proof.Kernel.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two distinct buffers behind the region's four windows. -/
theorem arrBufs1_eq (c : Dev nD) (A : (b : Ref sig .tc) → Buf (Elt F) ((c : Thread nD τ).loc b)) :
    (Pipeline.arrBufs (Ix := Unit) (Name := ℕ) (U := UR sig nD τ) (Lvl := ℕ) spec1 c A : sProp 𝕄)
      = iprop((((c : Thread nD τ).loc main_v3) ↦{fullShare} A main_v3) ∗ (((c : Thread nD τ).loc main_v4) ↦{fullShare} A main_v4)) := by
  unfold Pipeline.arrBufs
  exact bigSep_eq_bigSepL_of_eq [main_v3, main_v4] (by decide) (by decide) _

/-- The pipeline's arrays: each window's array is a whole buffer, held at the window's share. -/
theorem arrays1_eq0 (c : Dev nD) (Fa : (w : Fin cfg1.W) → Buf (Elt F) ((cfg1.win w).arr.view.loc (c : Thread nD τ))) :
    ((dat1 V c).arrays Fa : sProp 𝕄)
      = bigSep Finset.univ fun w : Fin cfg1.W => (((c : Thread nD τ).loc (Pipeline.arrRef spec1 w)) ↦{(dat1 V c).share w} Fa w : sProp 𝕄) := by
  unfold Dat.arrays
  exact bigSep_congr fun w _ => by rw [(arr_whole1 w).set_eq_univ]

/-- The shares: an input window holds its own, the output window the whole. -/
theorem share1_0 (c : Dev nD) : (dat1 V c).share 0 = fullShare.left := by
  unfold Dat.share
  rw [if_neg (fun h => Bool.false_ne_true ((show (cfg1.win 0).isOut = false from rfl).symm.trans h))]
  dsimp only [dat1, qshare]
theorem share1_1 (c : Dev nD) : (dat1 V c).share 1 = fullShare.right.left := by
  unfold Dat.share
  rw [if_neg (fun h => Bool.false_ne_true ((show (cfg1.win 1).isOut = false from rfl).symm.trans h))]
  dsimp only [dat1, qshare]
theorem share1_2 (c : Dev nD) : (dat1 V c).share 2 = fullShare.right.right := by
  unfold Dat.share
  rw [if_neg (fun h => Bool.false_ne_true ((show (cfg1.win 2).isOut = false from rfl).symm.trans h))]
  dsimp only [dat1, qshare]
theorem share1_3 (c : Dev nD) : (dat1 V c).share 3 = fullShare := by
  unfold Dat.share
  rw [if_pos (show (cfg1.win 3).isOut = true from rfl)]

/-- The pipeline's arrays, window by window, at their shares. -/
theorem arrays1_eq (c : Dev nD) (Fa : (w : Fin cfg1.W) → Buf (Elt F) ((cfg1.win w).arr.view.loc (c : Thread nD τ))) :
    ((dat1 V c).arrays Fa : sProp 𝕄)
      = iprop((((c : Thread nD τ).loc main_v3) ↦{fullShare.left} Fa 0) ∗ (((c : Thread nD τ).loc main_v3) ↦{fullShare.right.left} Fa 1)
          ∗ (((c : Thread nD τ).loc main_v3) ↦{fullShare.right.right} Fa 2) ∗ (((c : Thread nD τ).loc main_v4) ↦{fullShare} Fa 3)) := by
  rw [arrays1_eq0, bigSep_W1, share1_0, share1_1, share1_2, share1_3]

/-- ENTRY: the core's unscoped buffers at contents `A` are the region's arrays, each window's at those contents, and
    the unscoped rest. -/
theorem arrays1_of_unscopedBufs (c : Dev nD) (A : (b : Ref sig .tc) → Buf (Elt F) ((c : Thread nD τ).loc b))
    (Fa : (w : Fin cfg1.W) → Buf (Elt F) ((cfg1.win w).arr.view.loc (c : Thread nD τ)))
    (h0 : Fa 0 = A main_v3) (h1 : Fa 1 = A main_v3) (h2 : Fa 2 = A main_v3) (h3 : Fa 3 = A main_v4) :
    (unscopedBufs c A : sProp 𝕄)
      ⊢ iprop((dat1 V c).arrays Fa ∗ Pipeline.unscopedRest (Ix := Unit) (Name := ℕ) (U := UR sig nD τ) (Lvl := ℕ) spec1 c A) := by
  rw [Pipeline.unscopedBufs_split₀ cfgs 1 winFacts₀1.arr_unscoped c A]
  show iprop(Pipeline.arrBufs spec1 c A ∗ Pipeline.unscopedRest spec1 c A) ⊢ _
  rw [arrBufs1_eq, arrays1_eq, h0, h1, h2, h3]
  iintro ⟨⟨H3, H4⟩, Hrest⟩
  ihave H := (pointsTo_share (PosShare.mem_left_op_right fullShare)).1 $$ H3
  icases H with ⟨Hl, Hr⟩
  ihave H' := (pointsTo_share (PosShare.mem_left_op_right fullShare.right)).1 $$ Hr
  icases H' with ⟨Hrl, Hrr⟩
  isplitr [Hrest]
  · isplitl [Hl]; · iexact Hl
    isplitl [Hrl]; · iexact Hrl
    isplitl [Hrr]; · iexact Hrr
    iexact H4
  · iexact Hrest

/-- EXIT: the region's arrays — the three input windows' still at the entry contents, the output's at `O` — and the
    unscoped rest at `A` are the core's unscoped buffers at any contents `A'` that have the result at `O` and agree
    with `A` elsewhere. -/
theorem unscopedBufs_of_arrays1 (c : Dev nD) (A A' : (b : Ref sig .tc) → Buf (Elt F) ((c : Thread nD τ).loc b))
    (Fa : (w : Fin cfg1.W) → Buf (Elt F) ((cfg1.win w).arr.view.loc (c : Thread nD τ)))
    (h0 : Fa 0 = A' main_v3) (h1 : Fa 1 = A' main_v3) (h2 : Fa 2 = A' main_v3) (h3 : Fa 3 = A' main_v4)
    (hrest : ∀ b, b ∉ Finset.univ.image (Pipeline.arrRef spec1) → A' b = A b) :
    iprop((dat1 V c).arrays Fa ∗ Pipeline.unscopedRest (Ix := Unit) (Name := ℕ) (U := UR sig nD τ) (Lvl := ℕ) spec1 c A)
      ⊢ (unscopedBufs c A' : sProp 𝕄) := by
  rw [Pipeline.unscopedBufs_split₀ cfgs 1 winFacts₀1.arr_unscoped c A']
  show _ ⊢ iprop(Pipeline.arrBufs spec1 c A' ∗ Pipeline.unscopedRest spec1 c A')
  rw [arrBufs1_eq, arrays1_eq, h0, h1, h2, h3]
  have hr : (Pipeline.unscopedRest (Ix := Unit) (Name := ℕ) (U := UR sig nD τ) (Lvl := ℕ) spec1 c A : sProp 𝕄)
      = Pipeline.unscopedRest spec1 c A' := by
    unfold Pipeline.unscopedRest
    exact bigSep_congr fun b hb => by rw [hrest b (Finset.mem_sdiff.mp hb).2]
  rw [hr]
  iintro ⟨⟨Hl, Hrl, Hrr, H4⟩, Hrest⟩
  ihave Hr := (pointsTo_share (PosShare.mem_left_op_right fullShare.right)).2 $$ [Hrl Hrr]
  · isplitl [Hrl]; · iexact Hrl
    iexact Hrr
  ihave H3 := (pointsTo_share (PosShare.mem_left_op_right fullShare)).2 $$ [Hl Hr]
  · isplitl [Hl]; · iexact Hl
    iexact Hr
  isplitr [Hrest]
  · isplitl [H3]; · iexact H3
    iexact H4
  · iexact Hrest

end Cert.Kernel.Hand

end
-- ==== Proof.Kernel.Run.lean ====
/-
  The whole run, at any float instance: @main is two host stretches and two kernel regions,

    fused weights := concatenate; flat activations := reshape        (host)
    fused projections := the projection region                         (16 points)
    projections, batched := reshape                                    (host)
    result := the attention region                                     (4 × 8 points)

  and every weakly fair execution from a memory with zero counters terminates with the four argument arrays as
  launched and the result array holding what the attention region's write-backs leave (its proof data's folded
  write-backs), the attention region having been entered from the projection region's folded write-backs, reshaped.
  The buffers' contents at the five segment boundaries are a fold through @main: `W0` … `W4`.
-/
import proofs.«163901_j65481071395957_2_alg».proof.Proof.Gen.Kernel.Launch
import proofs.«163901_j65481071395957_2_alg».proof.Proof.Gen.Kernel.Skeleton
import proofs.«163901_j65481071395957_2_alg».proof.Proof.Gen.Kernel.Points
import proofs.«163901_j65481071395957_2_alg».proof.Proof.Gen.Kernel.Regions
import proofs.«163901_j65481071395957_2_alg».proof.Proof.Kernel.Body0
import proofs.«163901_j65481071395957_2_alg».proof.Proof.Kernel.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch, and after the first host stretch (the projection region's entry). -/
abbrev W0 : Dev nD → Valuation τ sig (Elt F) := fun c => Gen.V0 m c
abbrev W1 : Dev nD → Valuation τ sig (Elt F) := fun c => Gen.V1 m c
abbrev E1 : (c : Dev nD) → (b : Ref sig .tc) → Buf (Elt F) ((c : Thread nD τ).loc b) := fun c b => W1 m c b

/-- At the projection region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the reshape (the attention region's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b

/-- What the attention region's write-backs leave in the result array. -/
def result (c : Dev nD) : Buf (Elt F) ((c : Thread nD τ).loc main_v4) := (dat1 (E3 m) c).arrAt 3 cfg1.N

/-- At the attention region's exit: the result array at what the pipeline leaves, every other buffer as entered (its
    three input windows read one array and write nothing). -/
def W4 (c : Dev nD) : Valuation τ sig (Elt F) := Function.update (W3 m c) main_v4 (result m c)
abbrev E4 : (c : Dev nD) → (b : Ref sig .tc) → Buf (Elt F) ((c : Thread nD τ).loc b) := fun c b => W4 m c b
theorem W4_out (c : Dev nD) : W4 m c (Proc.devRef .tc main_v4) = result m c := by
  unfold W4; exact Function.update_self ..
theorem W4_of_ne (c : Dev nD) (b : Ref sig .tc) (hb : b ≠ main_v4) : W4 m c (Proc.devRef .tc b) = W3 m c (Proc.devRef .tc b) := by
  unfold W4
  exact Function.update_of_ne (StableHlo.devRef_ne_of_ne hb : (Proc.devRef .tc b : DevRef τ sig) ≠ Proc.devRef .tc main_v4) ..
theorem hrest1 (c : Dev nD) : ∀ b, b ∉ Finset.univ.image (Pipeline.arrRef spec1) → E4 m c b = E3 m c b :=
  fun b hb => W4_of_ne m c b fun e => hb (Finset.mem_image.mpr ⟨3, Finset.mem_univ _, e.symm⟩)

/-! ### The arguments end as launched -/

theorem W3_of (c : Dev nD) (r : Ref sig .tc) (h : r ∉ Gen.hostOps1_W) : W3 m c r = W2 m c r :=
  StableHlo.after_of_writes_sub hostOps1 _ Gen.hostOps1_writes h

theorem W4_arg (c : Dev nD) (b : Ref sig .tc) (h4 : b ≠ main_v4) (h3 : b ∉ Gen.hostOps1_W) (h2 : ∀ w, Pipeline.arrRef spec0 w ≠ b)
    (h1 : b ∉ Gen.hostOps0_W) : W4 m c (Proc.devRef .tc b) = m ((c : Thread nD τ).loc b) :=
  (W4_of_ne m c b h4).trans <| (W3_of m c b h3).trans <| (W2_of_ne m c b h2).trans <| (Gen.V1_of m c b h1).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The projection region: entered from every unscoped buffer at `W1`, left at `W2`. Its three arrays are distinct
    buffers, split out of the unscoped buffers at entry and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`. Its three input windows share the
    projections' buffer, held in three shares while the region runs. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := arrays1_of_unscopedBufs (E3 m) c (E3 m c) ((pdats m 1 c).arrAt · 0) rfl rfl rfl rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (E3 m c))
        ⊢ (unscopedBufs c (E4 m c) : sProp 𝕄) :=
      unscopedBufs_of_arrays1 (E3 m) c (E3 m c) (E4 m c) ((pdats m 1 c).arrAt · cfg1.N)
      (((dat1 (E3 m) c).arrAt_in 0 rfl _).trans (W4_of_ne m c main_v3 (by decide)).symm)
      (((dat1 (E3 m) c).arrAt_in 1 rfl _).trans (W4_of_ne m c main_v3 (by decide)).symm)
      (((dat1 (E3 m) c).arrAt_in 2 rfl _).trans (W4_of_ne m c main_v3 (by decide)).symm)
      (W4_out m c).symm (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (W0 m)),
    .region (reg0 m),
    .host (hseg hostOps1 hostOps1_sub Gen.hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has the result array at the attention region's folded write-backs and the four argument arrays as
    launched. -/
theorem run : θ_run defs (onTc (τ := τ) (main (F := F))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v4 (by decide))).trans (W4_out m c),
       (h c _ (mem_uc main_arg0 (by decide))).trans (W4_arg m c main_arg0 (by decide) (by decide) (by decide) (by decide)),
       (h c _ (mem_uc main_arg1 (by decide))).trans (W4_arg m c main_arg1 (by decide) (by decide) (by decide) (by decide)),
       (h c _ (mem_uc main_arg2 (by decide))).trans (W4_arg m c main_arg2 (by decide) (by decide) (by decide) (by decide)),
       (h c _ (mem_uc main_arg3 (by decide))).trans (W4_arg m c main_arg3 (by decide) (by decide) (by decide) (by decide))⟩)

end Cert.Kernel.Hand

end
-- ==== Proof.KernelIdeal.Body0.lean ====
/-
  The projection region (the first kernel launch), at any float instance, stated at a PARAMETER `V`: the contents of
  the core's buffers when the region is entered.

  The grid has 16 points; point `t` stages rows 512·t … 512·t+511 of the flattened activations (window 0), the whole
  fused weight matrix (window 1, staged once) and writes back rows 512·t … of the fused projections (window 2).
  The body loads both input blocks whole, forms one matrix product into a zero accumulator and stores it over the whole
  output block: so after the body the output buffer is that product of the two input blocks (`projOut`), and the
  input buffers are as they were.
-/
import proofs.«163901_j65481071395957_2_alg».proof.Proof.Gen.KernelIdeal.Launch
import proofs.«163901_j65481071395957_2_alg».proof.Proof.Gen.KernelIdeal.Skeleton
import proofs.«163901_j65481071395957_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weights' staging buffer holds the whole matrix at every point, although it is fetched at the first only: its
    block index never moves. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: each buffer whole -/

abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rO : Rect S512x3072 := Rect.unit (s := S512x3072) ![0, 0] S512x3072.size inb_S512x3072_S512x3072_0_0

/-- The output buffer after the body: its one store, of the product of the two loaded blocks. -/
def projOut (x0 : Vec F S512x1024 .f32) (x1 : Vec F S1024x3072 .f32) : Vec F S512x3072 .f32 :=
  View.canon [⟨rO, k0_pay1 (View.ld x0 rX) (View.ld x1 rW)⟩]

/-- The one store covers the buffer. -/
theorem projCover (p0 : Vec F S512x3072 .f32) (y : S512x3072.Idx) :
    ∃ pc ∈ ([⟨rO, p0⟩] : List (View.Piece (Elt F) S512x3072 .f32)), y ∈ pc.1.set :=
  View.cover_of_tiled [⟨rO, p0⟩] S512x3072.size (by rfl) y

/-! ## The body's triple -/

set_option maxHeartbeats 1000000 in
/-- The body on whole staging memrefs, the inputs' at contents `x0`, `x1` and the output's at anything, runs to the
    continuation holding the inputs' as they were and the output's at `projOut x0 x1`. -/
theorem proj_run (c : Dev nD) (E : Set ℕ) (i : grid0.Coords) (arg1 : Memref sig .tc .vmem S512x1024 .f32) (harg1 : arg1.IsWhole)
    (arg2 : Memref sig .tc .vmem S1024x3072 .f32) (harg2 : arg2.IsWhole) (arg3 : Memref sig .tc .vmem S512x3072 .f32) (harg3 : arg3.IsWhole)
    (x0 : Vec F S512x1024 .f32) (x1 : Vec F S1024x3072 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (projOut x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-! ## The pipeline's proof data -/

/-- The proof data of the projection pipeline on core `c`: the arrays as the region finds them; after the body at point
    `t` each input buffer at its block and the output buffer at the product of the two blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => projOut (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = projOut (blk0 V c 0 t) (blk0 V c 1 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `proj_run` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (proj_run c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Body1.lean ====
/-
  The attention region (the second kernel launch), at any float instance, stated at a PARAMETER `V`: the contents of
  the core's buffers when the region is entered.

  The grid is 4 × 8: point (b, qi) stages, all from ONE array (the fused projections, [4, 2048, 3072]), the query block
  (rows 256·qi … of batch b, features 0 … 1023; window 0), the key block (all 2048 rows of batch b, features 1024 … 2047;
  window 1) and the value block (all rows, features 2048 … 3071; window 2), and writes back rows 256·qi … of batch b of
  the result (window 3). The body loads the three input blocks whole, computes scores, a softmax over the keys and the
  weighted sum of the values, and stores it over the whole output block: after the body the output buffer is that
  function of the three input blocks (`attnOut`) and the input buffers are as they were.
  Since the three input windows read one array, the core holds that array in three shares, one per window: the left
  half of the whole, and the two halves of its right half.
-/
import proofs.«163901_j65481071395957_2_alg».proof.Proof.Gen.KernelIdeal.Launch
import proofs.«163901_j65481071395957_2_alg».proof.Proof.Gen.KernelIdeal.Skeleton
import proofs.«163901_j65481071395957_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The queries' staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The keys' staging buffer holds its block at every point: it is fetched when the batch index moves, and between
    two fetches the block index does not move. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The values' staging buffer likewise. -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: each buffer whole -/

abbrev rQ : Rect S1x256x1024 := Rect.unit (s := S1x256x1024) ![0, 0, 0] S1x256x1024.size inb_S1x256x1024_S1x256x1024_0_0_0
abbrev rK : Rect S1x2048x1024 := Rect.unit (s := S1x2048x1024) ![0, 0, 0] S1x2048x1024.size inb_S1x2048x1024_S1x2048x1024_0_0_0

/-- The output buffer after the body: its one store, of the attention of the three loaded blocks. -/
def attnOut (x0 : Vec F S1x256x1024 .f32) (x1 : Vec F S1x2048x1024 .f32) (x2 : Vec F S1x2048x1024 .f32) : Vec F S1x256x1024 .f32 :=
  View.canon [⟨rQ, k1_pay1 (View.ld x0 rQ) (View.ld x1 rK) (View.ld x2 rK)⟩]

/-- The one store covers the buffer. -/
theorem attnCover (p0 : Vec F S1x256x1024 .f32) (y : S1x256x1024.Idx) :
    ∃ pc ∈ ([⟨rQ, p0⟩] : List (View.Piece (Elt F) S1x256x1024 .f32)), y ∈ pc.1.set :=
  View.cover_of_tiled [⟨rQ, p0⟩] S1x256x1024.size (by rfl) y

/-! ## The body's triple -/

set_option maxHeartbeats 1000000 in
/-- The body on whole staging memrefs, the inputs' at contents `x0`, `x1`, `x2` and the output's at anything, runs to
    the continuation holding the inputs' as they were and the output's at `attnOut x0 x1 x2`. -/
theorem attn_run (c : Dev nD) (E : Set ℕ) (i : grid1.Coords) (arg2 : Memref sig .tc .vmem S1x256x1024 .f32) (harg2 : arg2.IsWhole)
    (arg3 : Memref sig .tc .vmem S1x2048x1024 .f32) (harg3 : arg3.IsWhole) (arg4 : Memref sig .tc .vmem S1x2048x1024 .f32) (harg4 : arg4.IsWhole)
    (arg5 : Memref sig .tc .vmem S1x256x1024 .f32) (harg5 : arg5.IsWhole)
    (x0 : Vec F S1x256x1024 .f32) (x1 : Vec F S1x2048x1024 .f32) (x2 : Vec F S1x2048x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (attnOut x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (attnCover _)

/-! ## The pipeline's proof data -/

/-- The three shares the one input array is held in, one per input window; the output's array is held whole. -/
def qshare : Fin cfg1.W → PosShare TreeShare
  | ⟨0, _⟩ => fullShare.left
  | ⟨1, _⟩ => fullShare.right.left
  | ⟨2, _⟩ => fullShare.right.right
  | ⟨_ + 3, _⟩ => fullShare

/-- The proof data of the attention pipeline on core `c`: the arrays as the region finds them; after the body at point
    `t` each input buffer at its block and the output buffer at the attention of the three blocks; the invariant is the
    scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => attnOut (blk1 V c 0 t) (blk1 V c 1 t) (blk1 V c 2 t)
  Φ _ := Pipeline.ΦA spec1 c
  q := qshare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = attnOut (blk1 V c 0 t) (blk1 V c 1 t) (blk1 V c 2 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `attn_run` applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (attn_run c Set.univ (grid1.coords t) _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Shares.lean ====
/-
  The attention region's arrays, in and out of the core's unscoped buffers.

  The region's four windows sit on TWO buffers: the fused projections (read by the query, key and value windows) and
  the result. At entry the core holds each buffer whole; the projections' buffer is split into three shares, one per
  input window (the left half, and the two halves of the right half). At exit the three shares — the input windows never
  write, so all three still hold the entry contents — are joined back into the whole.
-/
import proofs.«163901_j65481071395957_2_alg».proof.Proof.Gen.KernelIdeal.Launch
import proofs.«163901_j65481071395957_2_alg».proof.Proof.Gen.KernelIdeal.Skeleton
import proofs.«163901_j65481071395957_2_alg».proof.Proof.Gen.KernelIdeal.Points
import proofs.«163901_j65481071395957_2_alg».proof.Proof.KernelIdeal.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two distinct buffers behind the region's four windows. -/
theorem arrBufs1_eq (c : Dev nD) (A : (b : Ref sig .tc) → Buf (Elt F) ((c : Thread nD τ).loc b)) :
    (Pipeline.arrBufs (Ix := Unit) (Name := ℕ) (U := UR sig nD τ) (Lvl := ℕ) spec1 c A : sProp 𝕄)
      = iprop((((c : Thread nD τ).loc main_v3) ↦{fullShare} A main_v3) ∗ (((c : Thread nD τ).loc main_v4) ↦{fullShare} A main_v4)) := by
  unfold Pipeline.arrBufs
  exact bigSep_eq_bigSepL_of_eq [main_v3, main_v4] (by decide) (by decide) _

/-- The pipeline's arrays: each window's array is a whole buffer, held at the window's share. -/
theorem arrays1_eq0 (c : Dev nD) (Fa : (w : Fin cfg1.W) → Buf (Elt F) ((cfg1.win w).arr.view.loc (c : Thread nD τ))) :
    ((dat1 V c).arrays Fa : sProp 𝕄)
      = bigSep Finset.univ fun w : Fin cfg1.W => (((c : Thread nD τ).loc (Pipeline.arrRef spec1 w)) ↦{(dat1 V c).share w} Fa w : sProp 𝕄) := by
  unfold Dat.arrays
  exact bigSep_congr fun w _ => by rw [(arr_whole1 w).set_eq_univ]

/-- The shares: an input window holds its own, the output window the whole. -/
theorem share1_0 (c : Dev nD) : (dat1 V c).share 0 = fullShare.left := by
  unfold Dat.share
  rw [if_neg (fun h => Bool.false_ne_true ((show (cfg1.win 0).isOut = false from rfl).symm.trans h))]
  dsimp only [dat1, qshare]
theorem share1_1 (c : Dev nD) : (dat1 V c).share 1 = fullShare.right.left := by
  unfold Dat.share
  rw [if_neg (fun h => Bool.false_ne_true ((show (cfg1.win 1).isOut = false from rfl).symm.trans h))]
  dsimp only [dat1, qshare]
theorem share1_2 (c : Dev nD) : (dat1 V c).share 2 = fullShare.right.right := by
  unfold Dat.share
  rw [if_neg (fun h => Bool.false_ne_true ((show (cfg1.win 2).isOut = false from rfl).symm.trans h))]
  dsimp only [dat1, qshare]
theorem share1_3 (c : Dev nD) : (dat1 V c).share 3 = fullShare := by
  unfold Dat.share
  rw [if_pos (show (cfg1.win 3).isOut = true from rfl)]

/-- The pipeline's arrays, window by window, at their shares. -/
theorem arrays1_eq (c : Dev nD) (Fa : (w : Fin cfg1.W) → Buf (Elt F) ((cfg1.win w).arr.view.loc (c : Thread nD τ))) :
    ((dat1 V c).arrays Fa : sProp 𝕄)
      = iprop((((c : Thread nD τ).loc main_v3) ↦{fullShare.left} Fa 0) ∗ (((c : Thread nD τ).loc main_v3) ↦{fullShare.right.left} Fa 1)
          ∗ (((c : Thread nD τ).loc main_v3) ↦{fullShare.right.right} Fa 2) ∗ (((c : Thread nD τ).loc main_v4) ↦{fullShare} Fa 3)) := by
  rw [arrays1_eq0, bigSep_W1, share1_0, share1_1, share1_2, share1_3]

/-- ENTRY: the core's unscoped buffers at contents `A` are the region's arrays, each window's at those contents, and
    the unscoped rest. -/
theorem arrays1_of_unscopedBufs (c : Dev nD) (A : (b : Ref sig .tc) → Buf (Elt F) ((c : Thread nD τ).loc b))
    (Fa : (w : Fin cfg1.W) → Buf (Elt F) ((cfg1.win w).arr.view.loc (c : Thread nD τ)))
    (h0 : Fa 0 = A main_v3) (h1 : Fa 1 = A main_v3) (h2 : Fa 2 = A main_v3) (h3 : Fa 3 = A main_v4) :
    (unscopedBufs c A : sProp 𝕄)
      ⊢ iprop((dat1 V c).arrays Fa ∗ Pipeline.unscopedRest (Ix := Unit) (Name := ℕ) (U := UR sig nD τ) (Lvl := ℕ) spec1 c A) := by
  rw [Pipeline.unscopedBufs_split₀ cfgs 1 winFacts₀1.arr_unscoped c A]
  show iprop(Pipeline.arrBufs spec1 c A ∗ Pipeline.unscopedRest spec1 c A) ⊢ _
  rw [arrBufs1_eq, arrays1_eq, h0, h1, h2, h3]
  iintro ⟨⟨H3, H4⟩, Hrest⟩
  ihave H := (pointsTo_share (PosShare.mem_left_op_right fullShare)).1 $$ H3
  icases H with ⟨Hl, Hr⟩
  ihave H' := (pointsTo_share (PosShare.mem_left_op_right fullShare.right)).1 $$ Hr
  icases H' with ⟨Hrl, Hrr⟩
  isplitr [Hrest]
  · isplitl [Hl]; · iexact Hl
    isplitl [Hrl]; · iexact Hrl
    isplitl [Hrr]; · iexact Hrr
    iexact H4
  · iexact Hrest

/-- EXIT: the region's arrays — the three input windows' still at the entry contents, the output's at `O` — and the
    unscoped rest at `A` are the core's unscoped buffers at any contents `A'` that have the result at `O` and agree
    with `A` elsewhere. -/
theorem unscopedBufs_of_arrays1 (c : Dev nD) (A A' : (b : Ref sig .tc) → Buf (Elt F) ((c : Thread nD τ).loc b))
    (Fa : (w : Fin cfg1.W) → Buf (Elt F) ((cfg1.win w).arr.view.loc (c : Thread nD τ)))
    (h0 : Fa 0 = A' main_v3) (h1 : Fa 1 = A' main_v3) (h2 : Fa 2 = A' main_v3) (h3 : Fa 3 = A' main_v4)
    (hrest : ∀ b, b ∉ Finset.univ.image (Pipeline.arrRef spec1) → A' b = A b) :
    iprop((dat1 V c).arrays Fa ∗ Pipeline.unscopedRest (Ix := Unit) (Name := ℕ) (U := UR sig nD τ) (Lvl := ℕ) spec1 c A)
      ⊢ (unscopedBufs c A' : sProp 𝕄) := by
  rw [Pipeline.unscopedBufs_split₀ cfgs 1 winFacts₀1.arr_unscoped c A']
  show _ ⊢ iprop(Pipeline.arrBufs spec1 c A' ∗ Pipeline.unscopedRest spec1 c A')
  rw [arrBufs1_eq, arrays1_eq, h0, h1, h2, h3]
  have hr : (Pipeline.unscopedRest (Ix := Unit) (Name := ℕ) (U := UR sig nD τ) (Lvl := ℕ) spec1 c A : sProp 𝕄)
      = Pipeline.unscopedRest spec1 c A' := by
    unfold Pipeline.unscopedRest
    exact bigSep_congr fun b hb => by rw [hrest b (Finset.mem_sdiff.mp hb).2]
  rw [hr]
  iintro ⟨⟨Hl, Hrl, Hrr, H4⟩, Hrest⟩
  ihave Hr := (pointsTo_share (PosShare.mem_left_op_right fullShare.right)).2 $$ [Hrl Hrr]
  · isplitl [Hrl]; · iexact Hrl
    iexact Hrr
  ihave H3 := (pointsTo_share (PosShare.mem_left_op_right fullShare)).2 $$ [Hl Hr]
  · isplitl [Hl]; · iexact Hl
    iexact Hr
  isplitr [Hrest]
  · isplitl [H3]; · iexact H3
    iexact H4
  · iexact Hrest

end Cert.KernelIdeal.Hand

end
-- ==== Proof.KernelIdeal.Run.lean ====
/-
  The whole run, at any float instance: @main is two host stretches and two kernel regions,

    fused weights := concatenate; flat activations := reshape        (host)
    fused projections := the projection region                         (16 points)
    projections, batched := reshape                                    (host)
    result := the attention region                                     (4 × 8 points)

  and every weakly fair execution from a memory with zero counters terminates with the four argument arrays as
  launched and the result array holding what the attention region's write-backs leave (its proof data's folded
  write-backs), the attention region having been entered from the projection region's folded write-backs, reshaped.
  The buffers' contents at the five segment boundaries are a fold through @main: `W0` … `W4`.
-/
import proofs.«163901_j65481071395957_2_alg».proof.Proof.Gen.KernelIdeal.Launch
import proofs.«163901_j65481071395957_2_alg».proof.Proof.Gen.KernelIdeal.Skeleton
import proofs.«163901_j65481071395957_2_alg».proof.Proof.Gen.KernelIdeal.Points
import proofs.«163901_j65481071395957_2_alg».proof.Proof.Gen.KernelIdeal.Regions
import proofs.«163901_j65481071395957_2_alg».proof.Proof.KernelIdeal.Body0
import proofs.«163901_j65481071395957_2_alg».proof.Proof.KernelIdeal.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch, and after the first host stretch (the projection region's entry). -/
abbrev W0 : Dev nD → Valuation τ sig (Elt F) := fun c => Gen.V0 m c
abbrev W1 : Dev nD → Valuation τ sig (Elt F) := fun c => Gen.V1 m c
abbrev E1 : (c : Dev nD) → (b : Ref sig .tc) → Buf (Elt F) ((c : Thread nD τ).loc b) := fun c b => W1 m c b

/-- At the projection region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the reshape (the attention region's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b

/-- What the attention region's write-backs leave in the result array. -/
def result (c : Dev nD) : Buf (Elt F) ((c : Thread nD τ).loc main_v4) := (dat1 (E3 m) c).arrAt 3 cfg1.N

/-- At the attention region's exit: the result array at what the pipeline leaves, every other buffer as entered (its
    three input windows read one array and write nothing). -/
def W4 (c : Dev nD) : Valuation τ sig (Elt F) := Function.update (W3 m c) main_v4 (result m c)
abbrev E4 : (c : Dev nD) → (b : Ref sig .tc) → Buf (Elt F) ((c : Thread nD τ).loc b) := fun c b => W4 m c b
theorem W4_out (c : Dev nD) : W4 m c (Proc.devRef .tc main_v4) = result m c := by
  unfold W4; exact Function.update_self ..
theorem W4_of_ne (c : Dev nD) (b : Ref sig .tc) (hb : b ≠ main_v4) : W4 m c (Proc.devRef .tc b) = W3 m c (Proc.devRef .tc b) := by
  unfold W4
  exact Function.update_of_ne (StableHlo.devRef_ne_of_ne hb : (Proc.devRef .tc b : DevRef τ sig) ≠ Proc.devRef .tc main_v4) ..
theorem hrest1 (c : Dev nD) : ∀ b, b ∉ Finset.univ.image (Pipeline.arrRef spec1) → E4 m c b = E3 m c b :=
  fun b hb => W4_of_ne m c b fun e => hb (Finset.mem_image.mpr ⟨3, Finset.mem_univ _, e.symm⟩)

/-! ### The arguments end as launched -/

theorem W3_of (c : Dev nD) (r : Ref sig .tc) (h : r ∉ Gen.hostOps1_W) : W3 m c r = W2 m c r :=
  StableHlo.after_of_writes_sub hostOps1 _ Gen.hostOps1_writes h

theorem W4_arg (c : Dev nD) (b : Ref sig .tc) (h4 : b ≠ main_v4) (h3 : b ∉ Gen.hostOps1_W) (h2 : ∀ w, Pipeline.arrRef spec0 w ≠ b)
    (h1 : b ∉ Gen.hostOps0_W) : W4 m c (Proc.devRef .tc b) = m ((c : Thread nD τ).loc b) :=
  (W4_of_ne m c b h4).trans <| (W3_of m c b h3).trans <| (W2_of_ne m c b h2).trans <| (Gen.V1_of m c b h1).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The projection region: entered from every unscoped buffer at `W1`, left at `W2`. Its three arrays are distinct
    buffers, split out of the unscoped buffers at entry and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`. Its three input windows share the
    projections' buffer, held in three shares while the region runs. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := arrays1_of_unscopedBufs (E3 m) c (E3 m c) ((pdats m 1 c).arrAt · 0) rfl rfl rfl rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (E3 m c))
        ⊢ (unscopedBufs c (E4 m c) : sProp 𝕄) :=
      unscopedBufs_of_arrays1 (E3 m) c (E3 m c) (E4 m c) ((pdats m 1 c).arrAt · cfg1.N)
      (((dat1 (E3 m) c).arrAt_in 0 rfl _).trans (W4_of_ne m c main_v3 (by decide)).symm)
      (((dat1 (E3 m) c).arrAt_in 1 rfl _).trans (W4_of_ne m c main_v3 (by decide)).symm)
      (((dat1 (E3 m) c).arrAt_in 2 rfl _).trans (W4_of_ne m c main_v3 (by decide)).symm)
      (W4_out m c).symm (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (W0 m)),
    .region (reg0 m),
    .host (hseg hostOps1 hostOps1_sub Gen.hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has the result array at the attention region's folded write-backs and the four argument arrays as
    launched. -/
theorem run : θ_run defs (onTc (τ := τ) (main (F := F))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v4 (by decide))).trans (W4_out m c),
       (h c _ (mem_uc main_arg0 (by decide))).trans (W4_arg m c main_arg0 (by decide) (by decide) (by decide) (by decide)),
       (h c _ (mem_uc main_arg1 (by decide))).trans (W4_arg m c main_arg1 (by decide) (by decide) (by decide) (by decide)),
       (h c _ (mem_uc main_arg2 (by decide))).trans (W4_arg m c main_arg2 (by decide) (by decide) (by decide) (by decide)),
       (h c _ (mem_uc main_arg3 (by decide))).trans (W4_arg m c main_arg3 (by decide) (by decide) (by decide) (by decide))⟩)

end Cert.KernelIdeal.Hand

end
-- ==== Proof.Spec.lean ====
/-
  The function both programs compute, over the extended reals, with plain coordinates.

  For a batch element `b`, a query position `q` and an output feature `d`:
    Q = x·Wq, K = x·Wk, V = x·Wv            (each entry a sum over the 1024 input features),
    s j = scale (∑ e, Q[b,q,e] · K[b,j,e])    (2048 keys),
    m   = max(−∞, max_j s j),
    p j = exp (s j − m) / ∑ j', exp (s j' − m),
    out = ∑ j, p j · V[b,j,d].
  The kernel scales a score by the factor 2⁻⁵; the reference divides it by √1024. On the extended reals
  √1024 = 32 and dividing by the real 32 is multiplying by 1/32 at EVERY extended real (the infinities
  included), so the two scalings are one function (`scale_eq`) and no finiteness of the inputs is needed.
-/
import Idealize.ShloMosaic.PureOps.Ideal
import Idealize.ShloMosaic.PureOps.Ideal.Laws
import Idealize.ShloMosaic.Lib.ValueIdx

noncomputable section

namespace Cert.AttnSpec

open Idealize.ShloMosaic

/-- −∞, as the f32 word both programs spell. -/
abbrev negInf : EReal := Ideal.ofBits .f32 0xFF800000#32

/-- One entry of a projection: a row of activations against column `e` of a weight matrix. -/
def proj (xr : Fin 1024 → EReal) (w : Fin 1024 → Fin 1024 → EReal) (e : Fin 1024) : EReal :=
  ∑ d : Fin 1024, xr d * w d e

/-- The scaled score of a query row against key `j`. -/
def score (scale : EReal → EReal) (q : Fin 1024 → EReal) (K : Fin 2048 → Fin 1024 → EReal) (j : Fin 2048) : EReal :=
  scale (∑ e : Fin 1024, q e * K j e)

/-- A row's maximum, taken from −∞ and then once more against −∞, as both programs do. -/
def rowMax (s : Fin 2048 → EReal) : EReal :=
  max negInf ((Finset.univ : Finset (Fin 2048)).fold max negInf s)

/-- The shifted exponentials of a row of scores. -/
def expRow (s : Fin 2048 → EReal) (j : Fin 2048) : EReal := Ideal.exp (s j - rowMax s)

/-- The softmax weight of key `j`. -/
def weight (s : Fin 2048 → EReal) (j : Fin 2048) : EReal :=
  Ideal.div (expRow s j) (∑ j' : Fin 2048, expRow s j')

/-- The weighted sum of the values' feature `d`. -/
def attend (s : Fin 2048 → EReal) (V : Fin 2048 → Fin 1024 → EReal) (d : Fin 1024) : EReal :=
  ∑ j : Fin 2048, weight s j * V j d

/-- The whole function: attention of projected queries over projected keys and values, one batch element at a time. -/
def out (scale : EReal → EReal) (x : Fin 4 → Fin 2048 → Fin 1024 → EReal) (wq wk wv : Fin 1024 → Fin 1024 → EReal)
    (b : Fin 4) (q : Fin 2048) (d : Fin 1024) : EReal :=
  attend (score scale (proj (x b q) wq) (fun j => proj (x b j) wk)) (fun j => proj (x b j) wv) d

/-- The same function of whole arrays, index by index: activations `[4, 2048, 1024]`, three weight matrices `[1024, 1024]`. -/
def outArr (scale : EReal → EReal) (x : (⟨3, ![4, 2048, 1024]⟩ : Shape).Idx → EReal)
    (wq wk wv : (⟨2, ![1024, 1024]⟩ : Shape).Idx → EReal) : (⟨3, ![4, 2048, 1024]⟩ : Shape).Idx → EReal := fun i =>
  out scale (fun b s d => x (ValueIdx.ix3 b s d)) (fun d e => wq (ValueIdx.ix2 d e)) (fun d e => wk (ValueIdx.ix2 d e))
    (fun d e => wv (ValueIdx.ix2 d e)) ⟨(i 0).val, (i 0).isLt⟩ ⟨(i 1).val, (i 1).isLt⟩ ⟨(i 2).val, (i 2).isLt⟩

/-- The kernel's scaling: the product with the word of 2⁻⁵. -/
def scaleMul (t : EReal) : EReal := t * Ideal.ofBits .f32 0x3D000000#32

/-- The reference's scaling: the quotient by the square root of the word of 1024. -/
def scaleDiv (t : EReal) : EReal := Ideal.div t (Ideal.sqrt (Ideal.ofBits .f32 0x44800000#32))

/-- The word `0x44800000` denotes the real 1024. -/
theorem ofBits_1024 : Ideal.ofBits .f32 0x44800000#32 = ((1024 : ℝ) : EReal) := by
  simp [Ideal.ofBits, Ideal.ieee, -EReal.coe_mul]; norm_num

/-- The word `0x3D000000` denotes the real 1/32. -/
theorem ofBits_inv32 : Ideal.ofBits .f32 0x3D000000#32 = ((1 / 32 : ℝ) : EReal) := by
  simp [Ideal.ofBits, Ideal.ieee, -EReal.coe_mul]; norm_num

/-- √1024 = 32 on the extended reals. -/
theorem sqrt_1024 : Ideal.sqrt ((1024 : ℝ) : EReal) = ((32 : ℝ) : EReal) := by
  have h : Real.sqrt 1024 = 32 := by
    rw [show (1024 : ℝ) = 32 ^ 2 by norm_num]; exact Real.sqrt_sq (by norm_num)
  show (if (1024 : ℝ) < 0 then (⊥ : EReal) else ((Real.sqrt 1024 : ℝ) : EReal)) = _
  rw [if_neg (by norm_num), h]

/-- Dividing by √1024 is multiplying by 2⁻⁵, at every extended real. -/
theorem scale_eq : scaleDiv = scaleMul := by
  funext t
  unfold scaleDiv scaleMul
  rw [ofBits_1024, sqrt_1024, ofBits_inv32, Ideal.div_coe (by norm_num : (32 : ℝ) ≠ 0)]

end Cert.AttnSpec

end
-- ==== Proof.Payloads.lean ====
/-
  The two kernel bodies' arithmetic, read at one index, over the extended reals.

  The projection body is one matrix product into a zero accumulator: its entry (p, e) is the sum over the 1024 input
  features d of x[p, d] · w[d, e]. The attention body forms, for a query row r, the 2048 scores (the products of the
  query row with each key row, scaled by the word of 2⁻⁵), their maximum taken from −∞ and once more against −∞, the
  shifted exponentials, their sum, the quotients, and the sum over the keys of weight · value: the specification's
  `attend` of its `score`, entry by entry.
-/
import proofs.«163901_j65481071395957_2_alg».proof.Proof.Gen.KernelIdeal.Skeleton
import proofs.«163901_j65481071395957_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx

/-! ## The projection body: a [512,1024] by [1024,3072] product -/

/-- The product's dimension numbers: rows by contraction, contraction by columns. -/
abbrev D0 : DotDims S512x1024 S1024x3072 S512x3072 := dot_S512x1024_S1024x3072_S512x3072_1_0_0_1_n_n

/-- The left operand is read at the output's row … -/
theorem d0_lhs_0 (i : S512x3072.Idx) (q : D0.contr.Idx) : (D0.lhsIdx i q 0).val = (i 0).val := by
  unfold DotDims.lhsIdx
  rw [dif_neg (show ¬(0 : Fin S512x1024.rank) ∈ D0.lhsBatch by decide),
    dif_pos (show (0 : Fin S512x1024.rank) ∈ D0.lhsNonContracting by decide)]
  rfl
/-- … and the contraction coordinate; -/
theorem d0_lhs_1 (i : S512x3072.Idx) (q : D0.contr.Idx) : (D0.lhsIdx i q 1).val = (q ⟨0, by decide⟩).val :=
  D0.lhsIdx_val_of_single rfl i q
/-- the right operand at the contraction coordinate … -/
theorem d0_rhs_0 (i : S512x3072.Idx) (q : D0.contr.Idx) : (D0.rhsIdx i q 0).val = (q ⟨0, by decide⟩).val :=
  D0.rhsIdx_val_of_single rfl i q
/-- … and the output's column. -/
theorem d0_rhs_1 (i : S512x3072.Idx) (q : D0.contr.Idx) : (D0.rhsIdx i q 1).val = (i 1).val := by
  unfold DotDims.rhsIdx
  rw [dif_neg (show ¬(1 : Fin S1024x3072.rank) ∈ D0.rhsBatch by decide),
    dif_pos (show (1 : Fin S1024x3072.rank) ∈ D0.rhsNonContracting by decide)]
  rfl

/-- The product into the zero accumulator, at (p, e): the sum over the contraction coordinate. -/
theorem d0_matmul_apply (prec : Option ContractPrecision) (a : FVec Ideal S512x1024 .f32) (b : FVec Ideal S1024x3072 .f32)
    (p : Fin 512) (e : Fin 3072) :
    matmul D0 prec a b (constant (F := Ideal) S512x3072 .f32 0x00000000#32) (ix2 p e)
      = ∑ d : Fin 1024, a (ix2 p d) * b (ix2 d e) := by
  refine (Ideal.matmul_constant_zero_apply D0 prec a b (ix2 p e)).trans ?_
  rw [← Equiv.sum_comp (contrEquiv1 D0 1024 rfl rfl).symm]
  refine Finset.sum_congr rfl fun k _ => ?_
  have hk := contrEquiv1_symm_val D0 1024 rfl rfl k
  have el : D0.lhsIdx (ix2 p e) ((contrEquiv1 D0 1024 rfl rfl).symm k) = ix2 p k := funext fun c => Fin.ext (by
    match c with
    | ⟨0, _⟩ => exact d0_lhs_0 _ _
    | ⟨1, _⟩ => exact (d0_lhs_1 _ _).trans hk)
  have er : D0.rhsIdx (ix2 p e) ((contrEquiv1 D0 1024 rfl rfl).symm k) = ix2 k e := funext fun c => Fin.ext (by
    match c with
    | ⟨0, _⟩ => exact (d0_rhs_0 _ _).trans hk
    | ⟨1, _⟩ => exact d0_rhs_1 _ _)
  rw [el, er]

/-- The projection body: one matrix product into a zero accumulator. -/
theorem k0_pay1_apply (x0 : Vec Ideal S512x1024 .f32) (x1 : Vec Ideal S1024x3072 .f32) (p : Fin 512) (e : Fin 3072) :
    k0_pay1 (F := Ideal) x0 x1 (ix2 p e) = ∑ d : Fin 1024, x0 (ix2 p d) * x1 (ix2 d e) := by
  unfold k0_pay1
  refine (d0_matmul_apply (some .fp32) _ _ p e).trans ?_
  rw [shapeCast_self, shapeCast_self]

/-! ## The attention body: the two batched products -/

/-- The scores' dimension numbers: one batch axis of size one, query rows by features against key rows by features. -/
abbrev D1 : DotDims S1x256x1024 S1x2048x1024 S1x256x2048 := dot_S1x256x1024_S1x2048x1024_S1x256x2048_2_2_1_1_0_0
/-- The weighted sum's: one batch axis of size one, query rows by keys against keys by features. -/
abbrev D2 : DotDims S1x256x2048 S1x2048x1024 S1x256x1024 := dot_S1x256x2048_S1x2048x1024_S1x256x1024_2_1_1_2_0_0

theorem d1_lhs_0 (i : S1x256x2048.Idx) (q : D1.contr.Idx) : (D1.lhsIdx i q 0).val = (i 0).val := by
  unfold DotDims.lhsIdx
  rw [dif_pos (show (0 : Fin S1x256x1024.rank) ∈ D1.lhsBatch by decide)]
  rfl
theorem d1_lhs_1 (i : S1x256x2048.Idx) (q : D1.contr.Idx) : (D1.lhsIdx i q 1).val = (i 1).val := by
  unfold DotDims.lhsIdx
  rw [dif_neg (show ¬(1 : Fin S1x256x1024.rank) ∈ D1.lhsBatch by decide),
    dif_pos (show (1 : Fin S1x256x1024.rank) ∈ D1.lhsNonContracting by decide)]
  rfl
theorem d1_lhs_2 (i : S1x256x2048.Idx) (q : D1.contr.Idx) : (D1.lhsIdx i q 2).val = (q ⟨0, by decide⟩).val :=
  D1.lhsIdx_val_of_single rfl i q
theorem d1_rhs_0 (i : S1x256x2048.Idx) (q : D1.contr.Idx) : (D1.rhsIdx i q 0).val = (i 0).val := by
  unfold DotDims.rhsIdx
  rw [dif_pos (show (0 : Fin S1x2048x1024.rank) ∈ D1.rhsBatch by decide)]
  rfl
theorem d1_rhs_1 (i : S1x256x2048.Idx) (q : D1.contr.Idx) : (D1.rhsIdx i q 1).val = (i 2).val := by
  unfold DotDims.rhsIdx
  rw [dif_neg (show ¬(1 : Fin S1x2048x1024.rank) ∈ D1.rhsBatch by decide),
    dif_pos (show (1 : Fin S1x2048x1024.rank) ∈ D1.rhsNonContracting by decide)]
  rfl
theorem d1_rhs_2 (i : S1x256x2048.Idx) (q : D1.contr.Idx) : (D1.rhsIdx i q 2).val = (q ⟨0, by decide⟩).val :=
  D1.rhsIdx_val_of_single rfl i q

/-- The scores' product into the zero accumulator, at (0, r, j): query row r against key row j, summed over the features. -/
theorem d1_matmul_apply (prec : Option ContractPrecision) (a : FVec Ideal S1x256x1024 .f32) (b : FVec Ideal S1x2048x1024 .f32)
    (r : Fin 256) (j : Fin 2048) :
    matmul D1 prec a b (constant (F := Ideal) S1x256x2048 .f32 0x00000000#32) (ix3 (0 : Fin 1) r j)
      = ∑ e : Fin 1024, a (ix3 (0 : Fin 1) r e) * b (ix3 (0 : Fin 1) j e) := by
  refine (Ideal.matmul_constant_zero_apply D1 prec a b (ix3 (0 : Fin 1) r j)).trans ?_
  rw [← Equiv.sum_comp (contrEquiv1 D1 1024 rfl rfl).symm]
  refine Finset.sum_congr rfl fun k _ => ?_
  have hk := contrEquiv1_symm_val D1 1024 rfl rfl k
  have el : D1.lhsIdx (ix3 (0 : Fin 1) r j) ((contrEquiv1 D1 1024 rfl rfl).symm k) = ix3 (0 : Fin 1) r k :=
    funext fun c => Fin.ext (by
      match c with
      | ⟨0, _⟩ => exact d1_lhs_0 _ _
      | ⟨1, _⟩ => exact d1_lhs_1 _ _
      | ⟨2, _⟩ => exact (d1_lhs_2 _ _).trans hk)
  have er : D1.rhsIdx (ix3 (0 : Fin 1) r j) ((contrEquiv1 D1 1024 rfl rfl).symm k) = ix3 (0 : Fin 1) j k :=
    funext fun c => Fin.ext (by
      match c with
      | ⟨0, _⟩ => exact d1_rhs_0 _ _
      | ⟨1, _⟩ => exact d1_rhs_1 _ _
      | ⟨2, _⟩ => exact (d1_rhs_2 _ _).trans hk)
  rw [el, er]

theorem d2_lhs_0 (i : S1x256x1024.Idx) (q : D2.contr.Idx) : (D2.lhsIdx i q 0).val = (i 0).val := by
  unfold DotDims.lhsIdx
  rw [dif_pos (show (0 : Fin S1x256x2048.rank) ∈ D2.lhsBatch by decide)]
  rfl
theorem d2_lhs_1 (i : S1x256x1024.Idx) (q : D2.contr.Idx) : (D2.lhsIdx i q 1).val = (i 1).val := by
  unfold DotDims.lhsIdx
  rw [dif_neg (show ¬(1 : Fin S1x256x2048.rank) ∈ D2.lhsBatch by decide),
    dif_pos (show (1 : Fin S1x256x2048.rank) ∈ D2.lhsNonContracting by decide)]
  rfl
theorem d2_lhs_2 (i : S1x256x1024.Idx) (q : D2.contr.Idx) : (D2.lhsIdx i q 2).val = (q ⟨0, by decide⟩).val :=
  D2.lhsIdx_val_of_single rfl i q
theorem d2_rhs_0 (i : S1x256x1024.Idx) (q : D2.contr.Idx) : (D2.rhsIdx i q 0).val = (i 0).val := by
  unfold DotDims.rhsIdx
  rw [dif_pos (show (0 : Fin S1x2048x1024.rank) ∈ D2.rhsBatch by decide)]
  rfl
theorem d2_rhs_1 (i : S1x256x1024.Idx) (q : D2.contr.Idx) : (D2.rhsIdx i q 1).val = (q ⟨0, by decide⟩).val :=
  D2.rhsIdx_val_of_single rfl i q
theorem d2_rhs_2 (i : S1x256x1024.Idx) (q : D2.contr.Idx) : (D2.rhsIdx i q 2).val = (i 2).val := by
  unfold DotDims.rhsIdx
  rw [dif_neg (show ¬(2 : Fin S1x2048x1024.rank) ∈ D2.rhsBatch by decide),
    dif_pos (show (2 : Fin S1x2048x1024.rank) ∈ D2.rhsNonContracting by decide)]
  rfl

/-- The weighted sum's product into the zero accumulator, at (0, r, d): row r of the weights against column d of the
    values, summed over the keys. -/
theorem d2_matmul_apply (prec : Option ContractPrecision) (a : FVec Ideal S1x256x2048 .f32) (b : FVec Ideal S1x2048x1024 .f32)
    (r : Fin 256) (d : Fin 1024) :
    matmul D2 prec a b (constant (F := Ideal) S1x256x1024 .f32 0x00000000#32) (ix3 (0 : Fin 1) r d)
      = ∑ j : Fin 2048, a (ix3 (0 : Fin 1) r j) * b (ix3 (0 : Fin 1) j d) := by
  refine (Ideal.matmul_constant_zero_apply D2 prec a b (ix3 (0 : Fin 1) r d)).trans ?_
  rw [← Equiv.sum_comp (contrEquiv1 D2 2048 rfl rfl).symm]
  refine Finset.sum_congr rfl fun k _ => ?_
  have hk := contrEquiv1_symm_val D2 2048 rfl rfl k
  have el : D2.lhsIdx (ix3 (0 : Fin 1) r d) ((contrEquiv1 D2 2048 rfl rfl).symm k) = ix3 (0 : Fin 1) r k :=
    funext fun c => Fin.ext (by
      match c with
      | ⟨0, _⟩ => exact d2_lhs_0 _ _
      | ⟨1, _⟩ => exact d2_lhs_1 _ _
      | ⟨2, _⟩ => exact (d2_lhs_2 _ _).trans hk)
  have er : D2.rhsIdx (ix3 (0 : Fin 1) r d) ((contrEquiv1 D2 2048 rfl rfl).symm k) = ix3 (0 : Fin 1) k d :=
    funext fun c => Fin.ext (by
      match c with
      | ⟨0, _⟩ => exact d2_rhs_0 _ _
      | ⟨1, _⟩ => exact (d2_rhs_1 _ _).trans hk
      | ⟨2, _⟩ => exact d2_rhs_2 _ _)
  rw [el, er]

/-! ## The attention body: the two row reductions and the keepdims layout steps -/

/-- Over a row index (0, r) the index inserted on the key axis is (0, r, j). -/
theorem lift_eq (h : S1x256x2048.Reduces [2] S1x256) (r : Fin 256) (j : Fin 2048) :
    h.lift (ix2 (0 : Fin 1) r) j = ix3 (0 : Fin 1) r j :=
  funext fun c => Fin.ext (by
    match c with
    | ⟨0, _⟩ => rfl
    | ⟨1, _⟩ => rfl
    | ⟨2, _⟩ => rfl)

/-- The maximum over the keys, at row r: the fold of `max` from the accumulator's word over that row. -/
theorem reduceMax_apply (s : FVec Ideal S1x256x2048 .f32) (h : S1x256x2048.Reduces [2] S1x256) (hφ : FKind.Formats .f32)
    (hacc : (0xFF800000#32 : BitVec 32) = FKind.maximumf.neutral .f32 hφ) (r : Fin 256) :
    multiReduction .maximumf [2] S1x256 s 0xFF800000#32 h hφ hacc (ix2 (0 : Fin 1) r)
      = (Finset.univ : Finset (Fin 2048)).fold max (Ideal.ofBits .f32 0xFF800000#32) (fun j => s (ix3 (0 : Fin 1) r j)) := by
  refine (Ideal.multiReduction_maximumf_single s _ h hφ hacc (ix2 (0 : Fin 1) r)).trans ?_
  exact congrArg (fun f : Fin 2048 → EReal => (Finset.univ : Finset (Fin 2048)).fold max (Ideal.ofBits .f32 0xFF800000#32) f)
    (funext fun j => congrArg s (lift_eq h r j))

/-- The sum over the keys, at row r. -/
theorem reduceAdd_apply (x : FVec Ideal S1x256x2048 .f32) (h : S1x256x2048.Reduces [2] S1x256) (hφ : FKind.Formats .f32)
    (hacc : (0x00000000#32 : BitVec 32) = FKind.add.neutral .f32 hφ) (r : Fin 256) :
    multiReduction .add [2] S1x256 x 0x00000000#32 h hφ hacc (ix2 (0 : Fin 1) r) = ∑ j : Fin 2048, x (ix3 (0 : Fin 1) r j) := by
  refine (Ideal.multiReduction_add_single x _ h hφ hacc (ix2 (0 : Fin 1) r)).trans ?_
  exact Finset.sum_congr rfl fun j _ => congrArg x (lift_eq h r j)

/-- A row vector [1, 256] given a trailing unit axis and spread over the 2048 keys reads, at (0, r, j), its entry (0, r). -/
theorem keepdims_apply {α : Type} (m : S1x256.Idx → α) (hc : S1x256.ShapeCasts S1x256x1) (hb : S1x256x1.Broadcasts S1x256x2048)
    (r : Fin 256) (j : Fin 2048) :
    broadcastTo S1x256x2048 (shapeCast S1x256x1 m hc) hb (ix3 (0 : Fin 1) r j) = m (ix2 (0 : Fin 1) r) := by
  refine (broadcastTo_apply _ hb (ix3 (0 : Fin 1) r j) (ix3 (0 : Fin 1) r (0 : Fin 1)) fun a => ?_).trans ?_
  · match a with
    | ⟨0, _⟩ => rfl
    | ⟨1, _⟩ => rfl
    | ⟨2, _⟩ => rfl
  · exact shapeCast_apply m hc _ _ (by
      rw [Shape.rowMajor_val_two, Shape.rowMajor_val_three]
      show 0 * 256 + r.val = (0 * 256 + r.val) * 1 + 0
      omega)

/-! ## The attention body, step by step -/

/-- The scaled scores of a block of query rows against a block of key rows. -/
def scoresV (q : FVec Ideal S1x256x1024 .f32) (k : FVec Ideal S1x2048x1024 .f32) : FVec Ideal S1x256x2048 .f32 :=
  mulf (matmul D1 (some .fp32) q k (constant S1x256x2048 .f32 0x00000000#32))
    (broadcast S1x256x2048 (Scalar.ofBits .f32 0x3D000000#32))
/-- Each row's maximum, taken from −∞ and once more against −∞. -/
def maxV (s : FVec Ideal S1x256x2048 .f32) : FVec Ideal S1x256 .f32 :=
  maximumf (broadcast S1x256 (Scalar.ofBits .f32 0xFF800000#32))
    (multiReduction .maximumf [2] S1x256 s 0xFF800000#32 reduces_S1x256x2048_S1x256 (.inl rfl) rfl)
/-- The exponentials of the scores less their row's maximum. -/
def expV (s : FVec Ideal S1x256x2048 .f32) : FVec Ideal S1x256x2048 .f32 :=
  exp (subf s (broadcastTo S1x256x2048 (shapeCast S1x256x1 (maxV s) shapeCasts_S1x256_S1x256x1) broadcasts_S1x256x1_S1x256x2048))
/-- Each row's sum of them. -/
def sumV (s : FVec Ideal S1x256x2048 .f32) : FVec Ideal S1x256 .f32 :=
  multiReduction .add [2] S1x256 (expV s) 0x00000000#32 reduces_S1x256x2048_S1x256 (.inl rfl) rfl
/-- The softmax weights. -/
def weightV (s : FVec Ideal S1x256x2048 .f32) : FVec Ideal S1x256x2048 .f32 :=
  divf (expV s) (broadcastTo S1x256x2048 (shapeCast S1x256x1 (sumV s) shapeCasts_S1x256_S1x256x1) broadcasts_S1x256x1_S1x256x2048)

/-- The attention body is the product of the weights of the scaled scores with the values. -/
theorem k1_pay1_eq (q : Vec Ideal S1x256x1024 .f32) (k v : Vec Ideal S1x2048x1024 .f32) :
    k1_pay1 (F := Ideal) q k v
      = matmul (φ₁ := .f32) (φ₂ := .f32) D2 none (weightV (scoresV (q : FVec Ideal S1x256x1024 .f32) (k : FVec Ideal S1x2048x1024 .f32)))
          (v : FVec Ideal S1x2048x1024 .f32) (constant S1x256x1024 .f32 0x00000000#32) := by
  unfold k1_pay1
  rw [shapeCast_self, shapeCast_self, shapeCast_self]
  rfl

open Cert.AttnSpec in
/-- The score of query row r against key j. -/
theorem scoresV_apply (q : FVec Ideal S1x256x1024 .f32) (k : FVec Ideal S1x2048x1024 .f32) (r : Fin 256) (j : Fin 2048) :
    scoresV q k (ix3 (0 : Fin 1) r j)
      = score scaleMul (fun e => q (ix3 (0 : Fin 1) r e)) (fun j e => k (ix3 (0 : Fin 1) j e)) j := by
  unfold scoresV score scaleMul
  refine (mulf_apply _ _ _).trans ?_
  rw [d1_matmul_apply]
  rfl

open Cert.AttnSpec in
/-- Row r's maximum. -/
theorem maxV_apply (s : FVec Ideal S1x256x2048 .f32) (r : Fin 256) :
    maxV s (ix2 (0 : Fin 1) r) = rowMax (fun j => s (ix3 (0 : Fin 1) r j)) := by
  unfold maxV rowMax
  refine (maximumf_apply _ _ _).trans ?_
  exact congrArg (max negInf) (reduceMax_apply s _ _ _ r)

open Cert.AttnSpec in
/-- The shifted exponential at (r, j). -/
theorem expV_apply (s : FVec Ideal S1x256x2048 .f32) (r : Fin 256) (j : Fin 2048) :
    expV s (ix3 (0 : Fin 1) r j) = expRow (fun j => s (ix3 (0 : Fin 1) r j)) j := by
  unfold expV expRow
  show Ideal.exp (s (ix3 (0 : Fin 1) r j) - broadcastTo S1x256x2048 (shapeCast S1x256x1 (maxV s) shapeCasts_S1x256_S1x256x1)
    broadcasts_S1x256x1_S1x256x2048 (ix3 (0 : Fin 1) r j)) = _
  rw [keepdims_apply, maxV_apply]

open Cert.AttnSpec in
/-- Row r's sum of the shifted exponentials. -/
theorem sumV_apply (s : FVec Ideal S1x256x2048 .f32) (r : Fin 256) :
    sumV s (ix2 (0 : Fin 1) r) = ∑ j' : Fin 2048, expRow (fun j => s (ix3 (0 : Fin 1) r j)) j' := by
  unfold sumV
  refine (reduceAdd_apply (expV s) _ _ _ r).trans ?_
  exact Finset.sum_congr rfl fun j' _ => expV_apply s r j'

open Cert.AttnSpec in
/-- The softmax weight at (r, j). -/
theorem weightV_apply (s : FVec Ideal S1x256x2048 .f32) (r : Fin 256) (j : Fin 2048) :
    weightV s (ix3 (0 : Fin 1) r j) = weight (fun j => s (ix3 (0 : Fin 1) r j)) j := by
  unfold weightV weight
  refine (divf_apply _ _ _).trans ?_
  rw [keepdims_apply, expV_apply, sumV_apply]

/-- The attention body: scores of one query row against 2048 keys scaled by 2⁻⁵, softmax over the keys, weighted sum
    of the values. -/
theorem k1_pay1_apply (q : Vec Ideal S1x256x1024 .f32) (k v : Vec Ideal S1x2048x1024 .f32) (r : Fin 256) (d : Fin 1024) :
    k1_pay1 (F := Ideal) q k v (ix3 (0 : Fin 1) r d)
      = Cert.AttnSpec.attend
          (Cert.AttnSpec.score Cert.AttnSpec.scaleMul (fun e => q (ix3 (0 : Fin 1) r e)) (fun j e => k (ix3 (0 : Fin 1) j e)))
          (fun j d' => v (ix3 (0 : Fin 1) j d')) d := by
  rw [k1_pay1_eq]
  refine (d2_matmul_apply none _ _ r d).trans ?_
  unfold Cert.AttnSpec.attend
  have hs : (fun j => scoresV q k (ix3 (0 : Fin 1) r j))
      = Cert.AttnSpec.score Cert.AttnSpec.scaleMul (fun e => q (ix3 (0 : Fin 1) r e)) (fun j e => k (ix3 (0 : Fin 1) j e)) :=
    funext fun j => scoresV_apply q k r j
  refine Finset.sum_congr rfl fun j _ => ?_
  rw [weightV_apply, hs]

end Cert.KernelIdeal.Payloads

end
-- ==== Proof.KernelFns.lean ====
/-
  The two kernel regions' results as whole-array functions, over the extended reals.

  `projArr`: the fused projections [8192, 3072] of the flattened activations [8192, 1024] and the fused weights
  [1024, 3072] — entry (r, e) is the sum over the 1024 input features d of activations (r, d) times weights (d, e).
  `attnArr`: the attention result [4, 2048, 1024] of the fused, batched projections [4, 2048, 3072], whose features
  0 … 1023 are the queries, 1024 … 2047 the keys and 2048 … 3071 the values — entry (b, q, d) is the softmax over the 2048
  keys of the scaled scores of query row (b, q) applied to feature d of the values of batch b.
-/
import proofs.«163901_j65481071395957_2_alg».proof.KernelIdeal
import proofs.«163901_j65481071395957_2_alg».proof.Proof.Spec
import Idealize.ShloMosaic.Lib.ValueIdx

noncomputable section

namespace Cert.KernelIdeal.Fns

open Cert.KernelIdeal Idealize.ShloMosaic Idealize.ShloMosaic.ValueIdx

/-- The fused projections as one function of the flattened activations and the fused weights. -/
def projArr (xf : S8192x1024.Idx → EReal) (w : S1024x3072.Idx → EReal) : S8192x3072.Idx → EReal := fun i =>
  ∑ d : Fin 1024, xf (ix2 (⟨(i 0).val, (i 0).isLt⟩ : Fin 8192) d) * w (ix2 d (⟨(i 1).val, (i 1).isLt⟩ : Fin 3072))

/-- Feature `e` of the queries, keys, values inside the fused feature axis. -/
def qCol (e : Fin 1024) : Fin 3072 := ⟨e.val, by have := e.isLt; omega⟩
def kCol (e : Fin 1024) : Fin 3072 := ⟨1024 + e.val, by have := e.isLt; omega⟩
def vCol (e : Fin 1024) : Fin 3072 := ⟨2048 + e.val, by have := e.isLt; omega⟩

/-- The attention result as one function of the fused, batched projections. -/
def attnArr (qkv : S4x2048x3072.Idx → EReal) : S4x2048x1024.Idx → EReal := fun i =>
  Cert.AttnSpec.attend
    (Cert.AttnSpec.score Cert.AttnSpec.scaleMul
      (fun e : Fin 1024 => qkv (ix3 (⟨(i 0).val, (i 0).isLt⟩ : Fin 4) (⟨(i 1).val, (i 1).isLt⟩ : Fin 2048) (qCol e)))
      (fun (j : Fin 2048) (e : Fin 1024) => qkv (ix3 (⟨(i 0).val, (i 0).isLt⟩ : Fin 4) j (kCol e))))
    (fun (j : Fin 2048) (d' : Fin 1024) => qkv (ix3 (⟨(i 0).val, (i 0).isLt⟩ : Fin 4) j (vCol d')))
    (⟨(i 2).val, (i 2).isLt⟩ : Fin 1024)

end Cert.KernelIdeal.Fns

end
-- ==== Proof.ProjValue.lean ====
/-
  The projection region's result array, over the extended reals, as ONE function of the two arrays it reads.

  Grid point t stages rows 512·t … 512·t + 511 of the flattened activations [8192, 1024] and the whole fused weight
  matrix [1024, 3072], and writes back rows 512·t … of the fused projections [8192, 3072]: the product of the two
  staged blocks. Entry (p, e) of that product is the sum over the 1024 input features d of x[512·t + p, d] · w[d, e], which
  is entry (512·t + p, e) of the product of the whole arrays; the sixteen row blocks cover the result array; so the
  result array ends holding the product of the whole arrays (`proj_final`).
-/
import proofs.«163901_j65481071395957_2_alg».proof.Proof.KernelIdeal.Body0
import proofs.«163901_j65481071395957_2_alg».proof.Proof.Payloads
import proofs.«163901_j65481071395957_2_alg».proof.Proof.KernelFns
import Idealize.ShloMosaic.Lib.Pipeline.Value
import Idealize.ShloMosaic.Lib.ValueIdx

set_option maxRecDepth 16384

noncomputable section

namespace Cert.KernelIdeal.ProjValue

open Cert.KernelIdeal Cert.KernelIdeal.Gen Cert.KernelIdeal.Hand Cert.KernelIdeal.Payloads Cert.KernelIdeal.Fns
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The windows' block indices at grid point t: the activations' and the result's row block t, the weights' the one
    whole block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The activations' block at point t, at (p, d), is the flattened activations at row 512·t + p, column d. -/
theorem blk0_0_apply (c : Dev nD) (t : Fin cfg0.N) (p : Fin 512) (d : Fin 1024) (k : S8192x1024.Idx)
    (hk0 : (k 0).val = 512 * t.val + p.val) (hk1 : (k 1).val = d.val) :
    blk0 (F := Ideal) V c 0 t (ix2 p d) = (V c main_v1 : S8192x1024.Idx → EReal) k := by
  obtain ⟨e0, e1, -⟩ := idx_facts t
  unfold blk0
  rw [View.read_apply]
  show (V c main_v1 : S8192x1024.Idx → EReal) _ = _
  congr 1
  funext a; apply Fin.ext
  match a with
  | ⟨0, _⟩ => show win0_0.index t (0 : Fin 2) * 512 + 1 * p.val = (k 0).val; omega
  | ⟨1, _⟩ => show win0_0.index t (1 : Fin 2) * 1024 + 1 * d.val = (k 1).val; omega

/-- The weights' block at any point is the whole fused weight matrix. -/
theorem blk0_1_apply (c : Dev nD) (t : Fin cfg0.N) (d : Fin 1024) (e : Fin 3072) (k : S1024x3072.Idx)
    (hk0 : (k 0).val = d.val) (hk1 : (k 1).val = e.val) :
    blk0 (F := Ideal) V c 1 t (ix2 d e) = (V c main_v0 : S1024x3072.Idx → EReal) k := by
  obtain ⟨-, -, e2, e3, -⟩ := idx_facts t
  unfold blk0
  rw [View.read_apply]
  show (V c main_v0 : S1024x3072.Idx → EReal) _ = _
  congr 1
  funext a; apply Fin.ext
  match a with
  | ⟨0, _⟩ => show win0_1.index t (0 : Fin 2) * 1024 + 1 * d.val = (k 0).val; omega
  | ⟨1, _⟩ => show win0_1.index t (1 : Fin 2) * 3072 + 1 * e.val = (k 1).val; omega

/-- The result's block at point t sits at row 512·t … -/
theorem emb2_0 (t : Fin cfg0.N) (p : Fin 512) (e : Fin 3072) :
    ((((cfg0.win 2).blk t).view.emb (ix2 p e) : S8192x3072.Idx) 0).val = 512 * t.val + p.val := by
  obtain ⟨-, -, -, -, e4, -⟩ := idx_facts t
  show win0_2.index t (0 : Fin 2) * 512 + 1 * p.val = _
  omega
/-- … and column 0. -/
theorem emb2_1 (t : Fin cfg0.N) (p : Fin 512) (e : Fin 3072) :
    ((((cfg0.win 2).blk t).view.emb (ix2 p e) : S8192x3072.Idx) 1).val = e.val := by
  obtain ⟨-, -, -, -, -, e5⟩ := idx_facts t
  show win0_2.index t (1 : Fin 2) * 3072 + 1 * e.val = _
  omega

/-- WHAT POINT t WRITES BACK is block t of the product of the whole arrays. -/
theorem flushed_eq (c : Dev nD) (t : Fin cfg0.N) :
    (dat0 (F := Ideal) V c).flushed 2 t = ((cfg0.win 2).blk t).view.read (Elt Ideal) (projArr (V c main_v1) (V c main_v0)) := by
  show (cfg0.win 2).cut (grid0.coords t) ((dat0 V c).after 2 t) = _
  rw [after0_2]
  unfold projOut
  rw [View.canon_unit_zero hz]
  simp only [View.ld_unit_zero (S := S512x1024) hz, View.ld_unit_zero (S := S1024x3072) hz]
  funext j
  obtain ⟨p, e, rfl⟩ : ∃ (p : Fin 512) (e : Fin 3072), j = ix2 p e := ⟨j 0, j 1, eq_ix2 j⟩
  show k0_pay1 (F := Ideal) (blk0 V c 0 t) (blk0 V c 1 t) (ix2 p e)
    = projArr (V c main_v1) (V c main_v0) (((cfg0.win 2).blk t).view.emb (ix2 p e))
  rw [k0_pay1_apply]
  unfold projArr
  refine Finset.sum_congr rfl fun d _ => ?_
  refine congrArg₂ (· * ·) ?_ ?_
  · exact blk0_0_apply V c t p d _ (emb2_0 t p e) (by rfl)
  · exact blk0_1_apply V c t d e _ (by rfl) (emb2_1 t p e)

/-- An index of the result array is in point t's block iff each coordinate is in the block's range on its axis. -/
theorem mem_blk (t : Fin cfg0.N) (i : S8192x3072.Idx) :
    i ∈ ((cfg0.win 2).blk t).view.set ↔ ∀ a : Fin 2, win0_2.index t a * S512x3072.size a ≤ (i a).val
      ∧ (i a).val < win0_2.index t a * S512x3072.size a + S512x3072.size a := by
  show i ∈ ((View.whole main_v2).slice (win0_2.rect t)).set ↔ _
  rw [View.set_slice_whole, Rect.mem_set_unit]
  exact Iff.rfl

/-- Every index of the result array lies in the block of the point its row block names. -/
theorem cover (i : S8192x3072.Idx) : ∃ t : Fin cfg0.N, (cfg0.win 2).flush t = true ∧ i ∈ ((cfg0.win 2).blk t).view.set := by
  have hi0 : (i 0).val < 8192 := (i 0).isLt
  have hi1 : (i 1).val < 3072 := (i 1).isLt
  have hN : cfg0.N = 16 := N_0
  have ht : (i 0).val / 512 < cfg0.N := by rw [hN]; omega
  obtain ⟨-, -, -, -, e4, e5⟩ := idx_facts ⟨(i 0).val / 512, ht⟩
  refine ⟨⟨(i 0).val / 512, ht⟩, flush0_2 _, ?_⟩
  rw [mem_blk]
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    have h : win0_2.index ⟨(i 0).val / 512, ht⟩ (0 : Fin 2) = (i 0).val / 512 := e4
    omega
  | ⟨1, _⟩ =>
    show win0_2.index ⟨(i 0).val / 512, ht⟩ (1 : Fin 2) * 3072 ≤ (i 1).val
      ∧ (i 1).val < win0_2.index ⟨(i 0).val / 512, ht⟩ (1 : Fin 2) * 3072 + 3072
    omega

/-- THE RESULT ARRAY after the region: the product of the flattened activations with the fused weights. -/
theorem proj_final (c : Dev nD) : (dat0 (F := Ideal) V c).arrAt 2 cfg0.N = projArr (V c main_v1) (V c main_v0) :=
  (dat0 V c).arrAt_eq_of_cover 2 (projArr (V c main_v1) (V c main_v0)) (fun t _ => flushed_eq V c t) cover

end Cert.KernelIdeal.ProjValue

end
-- ==== Proof.AttnValue.lean ====
/-
  The attention region's result array, over the extended reals, as ONE function of the array it reads.

  The grid is 4 × 8: point t is batch element t / 8 and query block t % 8. It stages, all from the fused batched
  projections [4, 2048, 3072]: query rows 256·(t % 8) … of batch t / 8 at features 0 … 1023; all 2048 key rows of that
  batch at features 1024 … 2047; all 2048 value rows at features 2048 … 3071; and writes back rows 256·(t % 8) … of batch
  t / 8 of the result [4, 2048, 1024]: the attention of the three staged blocks. Entry (0, r, d) of that is the softmax,
  over the 2048 keys, of the scaled scores of query row r, applied to feature d of the values, which is entry
  (t / 8, 256·(t % 8) + r, d) of the same function of the whole array; the thirty-two blocks cover the result array; so
  the result array ends holding that function of the whole array (`attn_final`).
-/
import proofs.«163901_j65481071395957_2_alg».proof.Proof.KernelIdeal.Body1
import proofs.«163901_j65481071395957_2_alg».proof.Proof.Payloads
import proofs.«163901_j65481071395957_2_alg».proof.Proof.KernelFns
import proofs.«163901_j65481071395957_2_alg».proof.Proof.Spec
import Idealize.ShloMosaic.Lib.Pipeline.Value
import Idealize.ShloMosaic.Lib.ValueIdx

set_option maxRecDepth 16384

noncomputable section

namespace Cert.KernelIdeal.AttnValue

open Cert.KernelIdeal Cert.KernelIdeal.Gen Cert.KernelIdeal.Hand Cert.KernelIdeal.Payloads Cert.KernelIdeal.Fns
open Idealize.ShloMosaic Idealize.ShloMosaic.TcCoe Idealize.SL.Sem Idealize.ShloMosaic.ValueIdx
open Idealize.ShloMosaic.Pipeline (Dat)

theorem hz : (![0, 0, 0] : Fin 3 → Nat) = fun _ => 0 := funext fun a => by fin_cases a <;> rfl

/-- The windows' block indices at grid point t: batch t / 8 everywhere; the queries' and the result's row block t % 8;
    the keys' and values' one block of all rows; the feature blocks 0, 1, 2 of the queries, keys, values. -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 1
    ∧ win1_2.index t (0 : Fin 3) = t.val / 8 ∧ win1_2.index t (1 : Fin 3) = 0 ∧ win1_2.index t (2 : Fin 3) = 2
    ∧ win1_3.index t (0 : Fin 3) = t.val / 8 ∧ win1_3.index t (1 : Fin 3) = t.val % 8 ∧ win1_3.index t (2 : Fin 3) = 0 :=
  (by decide +kernel : ∀ t : Fin grid1.N, _)

variable (V : (c : Dev nD) → (b : Ref sig .tc) → Buf (Elt Ideal) ((c : Thread nD τ).loc b))

/-- The queries' block at point t, at (0, r, e), is the array at batch t / 8, row 256·(t % 8) + r, feature e. -/
theorem blk1_0_apply (c : Dev nD) (t : Fin cfg1.N) (r : Fin 256) (e : Fin 1024) (k : S4x2048x3072.Idx)
    (hk0 : (k 0).val = t.val / 8) (hk1 : (k 1).val = 256 * (t.val % 8) + r.val) (hk2 : (k 2).val = e.val) :
    blk1 (F := Ideal) V c 0 t (ix3 (0 : Fin 1) r e) = (V c main_v3 : S4x2048x3072.Idx → EReal) k := by
  obtain ⟨e0, e1, e2, -⟩ := idx_facts t
  unfold blk1
  rw [View.read_apply]
  show (V c main_v3 : S4x2048x3072.Idx → EReal) _ = _
  congr 1
  funext a; apply Fin.ext
  match a with
  | ⟨0, _⟩ => show win1_0.index t (0 : Fin 3) * 1 + 1 * 0 = (k 0).val; omega
  | ⟨1, _⟩ => show win1_0.index t (1 : Fin 3) * 256 + 1 * r.val = (k 1).val; omega
  | ⟨2, _⟩ => show win1_0.index t (2 : Fin 3) * 1024 + 1 * e.val = (k 2).val; omega

/-- The keys' block at point t, at (0, j, e), is the array at batch t / 8, row j, feature 1024 + e. -/
theorem blk1_1_apply (c : Dev nD) (t : Fin cfg1.N) (j : Fin 2048) (e : Fin 1024) (k : S4x2048x3072.Idx)
    (hk0 : (k 0).val = t.val / 8) (hk1 : (k 1).val = j.val) (hk2 : (k 2).val = 1024 + e.val) :
    blk1 (F := Ideal) V c 1 t (ix3 (0 : Fin 1) j e) = (V c main_v3 : S4x2048x3072.Idx → EReal) k := by
  obtain ⟨-, -, -, e3, e4, e5, -⟩ := idx_facts t
  unfold blk1
  rw [View.read_apply]
  show (V c main_v3 : S4x2048x3072.Idx → EReal) _ = _
  congr 1
  funext a; apply Fin.ext
  match a with
  | ⟨0, _⟩ => show win1_1.index t (0 : Fin 3) * 1 + 1 * 0 = (k 0).val; omega
  | ⟨1, _⟩ => show win1_1.index t (1 : Fin 3) * 2048 + 1 * j.val = (k 1).val; omega
  | ⟨2, _⟩ => show win1_1.index t (2 : Fin 3) * 1024 + 1 * e.val = (k 2).val; omega

/-- The values' block at point t, at (0, j, d), is the array at batch t / 8, row j, feature 2048 + d. -/
theorem blk1_2_apply (c : Dev nD) (t : Fin cfg1.N) (j : Fin 2048) (d : Fin 1024) (k : S4x2048x3072.Idx)
    (hk0 : (k 0).val = t.val / 8) (hk1 : (k 1).val = j.val) (hk2 : (k 2).val = 2048 + d.val) :
    blk1 (F := Ideal) V c 2 t (ix3 (0 : Fin 1) j d) = (V c main_v3 : S4x2048x3072.Idx → EReal) k := by
  obtain ⟨-, -, -, -, -, -, e6, e7, e8, -⟩ := idx_facts t
  unfold blk1
  rw [View.read_apply]
  show (V c main_v3 : S4x2048x3072.Idx → EReal) _ = _
  congr 1
  funext a; apply Fin.ext
  match a with
  | ⟨0, _⟩ => show win1_2.index t (0 : Fin 3) * 1 + 1 * 0 = (k 0).val; omega
  | ⟨1, _⟩ => show win1_2.index t (1 : Fin 3) * 2048 + 1 * j.val = (k 1).val; omega
  | ⟨2, _⟩ => show win1_2.index t (2 : Fin 3) * 1024 + 1 * d.val = (k 2).val; omega

/-- The attention of point t's three blocks, at (0, r, d), is the whole-array function at any index i of batch t / 8,
    row 256·(t % 8) + r, feature d. -/
theorem attn_at (c : Dev nD) (t : Fin cfg1.N) (r : Fin 256) (d : Fin 1024) (i : S4x2048x1024.Idx)
    (h0 : (i 0).val = t.val / 8) (h1 : (i 1).val = 256 * (t.val % 8) + r.val) (h2 : (i 2).val = d.val) :
    k1_pay1 (F := Ideal) (blk1 V c 0 t) (blk1 V c 1 t) (blk1 V c 2 t) (ix3 (0 : Fin 1) r d) = attnArr (V c main_v3) i := by
  rw [k1_pay1_apply]
  unfold attnArr
  have hq : (fun e : Fin 1024 => blk1 (F := Ideal) V c 0 t (ix3 (0 : Fin 1) r e))
      = fun e : Fin 1024 => (V c main_v3 : S4x2048x3072.Idx → EReal)
          (ix3 (⟨(i 0).val, (i 0).isLt⟩ : Fin 4) (⟨(i 1).val, (i 1).isLt⟩ : Fin 2048) (qCol e)) :=
    funext fun e => blk1_0_apply V c t r e _ h0 h1 (by rfl)
  have hk : (fun (j : Fin 2048) (e : Fin 1024) => blk1 (F := Ideal) V c 1 t (ix3 (0 : Fin 1) j e))
      = fun (j : Fin 2048) (e : Fin 1024) => (V c main_v3 : S4x2048x3072.Idx → EReal)
          (ix3 (⟨(i 0).val, (i 0).isLt⟩ : Fin 4) j (kCol e)) :=
    funext fun j => funext fun e => blk1_1_apply V c t j e _ h0 (by rfl) (by rfl)
  have hv : (fun (j : Fin 2048) (d' : Fin 1024) => blk1 (F := Ideal) V c 2 t (ix3 (0 : Fin 1) j d'))
      = fun (j : Fin 2048) (d' : Fin 1024) => (V c main_v3 : S4x2048x3072.Idx → EReal)
          (ix3 (⟨(i 0).val, (i 0).isLt⟩ : Fin 4) j (vCol d')) :=
    funext fun j => funext fun d' => blk1_2_apply V c t j d' _ h0 (by rfl) (by rfl)
  have hd : d = (⟨(i 2).val, (i 2).isLt⟩ : Fin 1024) := Fin.ext h2.symm
  rw [hq, hk, hv, ← hd]

/-- The result's block at point t sits at batch t / 8 … -/
theorem emb3_0 (t : Fin cfg1.N) (r : Fin 256) (d : Fin 1024) :
    ((((cfg1.win 3).blk t).view.emb (ix3 (0 : Fin 1) r d) : S4x2048x1024.Idx) 0).val = t.val / 8 := by
  obtain ⟨-, -, -, -, -, -, -, -, -, e9, -⟩ := idx_facts t
  show win1_3.index t (0 : Fin 3) * 1 + 1 * 0 = _
  omega
/-- … row 256·(t % 8) … -/
theorem emb3_1 (t : Fin cfg1.N) (r : Fin 256) (d : Fin 1024) :
    ((((cfg1.win 3).blk t).view.emb (ix3 (0 : Fin 1) r d) : S4x2048x1024.Idx) 1).val = 256 * (t.val % 8) + r.val := by
  obtain ⟨-, -, -, -, -, -, -, -, -, -, e10, -⟩ := idx_facts t
  show win1_3.index t (1 : Fin 3) * 256 + 1 * r.val = _
  omega
/-- … and feature 0. -/
theorem emb3_2 (t : Fin cfg1.N) (r : Fin 256) (d : Fin 1024) :
    ((((cfg1.win 3).blk t).view.emb (ix3 (0 : Fin 1) r d) : S4x2048x1024.Idx) 2).val = d.val := by
  obtain ⟨-, -, -, -, -, -, -, -, -, -, -, e11⟩ := idx_facts t
  show win1_3.index t (2 : Fin 3) * 1024 + 1 * d.val = _
  omega

/-- WHAT POINT t WRITES BACK is block t of the whole-array function. -/
theorem flushed_eq (c : Dev nD) (t : Fin cfg1.N) :
    (dat1 (F := Ideal) V c).flushed 3 t = ((cfg1.win 3).blk t).view.read (Elt Ideal) (attnArr (V c main_v3)) := by
  show (cfg1.win 3).cut (grid1.coords t) ((dat1 V c).after 3 t) = _
  rw [after1_3]
  unfold attnOut
  rw [View.canon_unit_zero hz]
  simp only [View.ld_unit_zero (S := S1x256x1024) hz, View.ld_unit_zero (S := S1x2048x1024) hz]
  funext j
  obtain ⟨u, r, d, rfl⟩ : ∃ (u : Fin 1) (r : Fin 256) (d : Fin 1024), j = ix3 u r d := ⟨j 0, j 1, j 2, eq_ix3 j⟩
  obtain rfl : u = 0 := Subsingleton.elim _ _
  exact attn_at V c t r d _ (emb3_0 t r d) (emb3_1 t r d) (emb3_2 t r d)

/-- An index of the result array is in point t's block iff each coordinate is in the block's range on its axis. -/
theorem mem_blk (t : Fin cfg1.N) (i : S4x2048x1024.Idx) :
    i ∈ ((cfg1.win 3).blk t).view.set ↔ ∀ a : Fin 3, win1_3.index t a * S1x256x1024.size a ≤ (i a).val
      ∧ (i a).val < win1_3.index t a * S1x256x1024.size a + S1x256x1024.size a := by
  show i ∈ ((View.whole main_v4).slice (win1_3.rect t)).set ↔ _
  rw [View.set_slice_whole, Rect.mem_set_unit]
  exact Iff.rfl

/-- Every index of the result array lies in the block of the point its batch and query block name. -/
theorem cover (i : S4x2048x1024.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have hN : cfg1.N = 32 := N_1
  have ht : (i 0).val * 8 + (i 1).val / 256 < cfg1.N := by rw [hN]; omega
  obtain ⟨-, -, -, -, -, -, -, -, -, e9, e10, e11⟩ := idx_facts ⟨(i 0).val * 8 + (i 1).val / 256, ht⟩
  refine ⟨⟨(i 0).val * 8 + (i 1).val / 256, ht⟩, flush1_3 _, ?_⟩
  rw [mem_blk]
  intro a
  match a with
  | ⟨0, _⟩ =>
    show win1_3.index ⟨(i 0).val * 8 + (i 1).val / 256, ht⟩ (0 : Fin 3) * 1 ≤ (i 0).val
      ∧ (i 0).val < win1_3.index ⟨(i 0).val * 8 + (i 1).val / 256, ht⟩ (0 : Fin 3) * 1 + 1
    have h : win1_3.index ⟨(i 0).val * 8 + (i 1).val / 256, ht⟩ (0 : Fin 3) = ((i 0).val * 8 + (i 1).val / 256) / 8 := e9
    omega
  | ⟨1, _⟩ =>
    show win1_3.index ⟨(i 0).val * 8 + (i 1).val / 256, ht⟩ (1 : Fin 3) * 256 ≤ (i 1).val
      ∧ (i 1).val < win1_3.index ⟨(i 0).val * 8 + (i 1).val / 256, ht⟩ (1 : Fin 3) * 256 + 256
    have h : win1_3.index ⟨(i 0).val * 8 + (i 1).val / 256, ht⟩ (1 : Fin 3) = ((i 0).val * 8 + (i 1).val / 256) % 8 := e10
    omega
  | ⟨2, _⟩ =>
    show win1_3.index ⟨(i 0).val * 8 + (i 1).val / 256, ht⟩ (2 : Fin 3) * 1024 ≤ (i 2).val
      ∧ (i 2).val < win1_3.index ⟨(i 0).val * 8 + (i 1).val / 256, ht⟩ (2 : Fin 3) * 1024 + 1024
    omega

/-- THE RESULT ARRAY after the region: the attention of the fused, batched projections. -/
theorem attn_final (c : Dev nD) : (dat1 (F := Ideal) V c).arrAt 3 cfg1.N = attnArr (V c main_v3) :=
  (dat1 V c).arrAt_eq_of_cover 3 (attnArr (V c main_v3)) (fun t _ => flushed_eq V c t) cover

end Cert.KernelIdeal.AttnValue

end
-- ==== Proof.Bridge.lean ====
/-
  The kernel side's algebra, over the extended reals: the two regions' whole-array functions (KernelFns.lean), composed
  through the host's data movement, are the specification (Spec.lean) with the product by 2⁻⁵ as the scaling.

  The host flattens the activations [4, 2048, 1024] to [8192, 1024] — row 2048 b + s is (b, s) —, lays the three weight
  matrices side by side into [1024, 3072] — columns e, 1024 + e, 2048 + e are column e of the query, key and value
  weights —, and batches the fused projections [8192, 3072] back to [4, 2048, 3072]. A reshape keeps the row-major
  position, and a concatenation read at a column is the piece whose span holds the column, at the column less the
  extents before it. So feature e (1024 + e, 2048 + e) of row (b, s) of the batched projections is the sum over the
  1024 input features d of activations (b, s, d) times the query (key, value) weights (d, e): the specification's
  projections, and the attention function applied to them is the specification's.
-/
import proofs.«163901_j65481071395957_2_alg».proof.Proof.KernelFns
import proofs.«163901_j65481071395957_2_alg».proof.Proof.Gen.KernelIdeal
import Idealize.ShloMosaic.Lib.Pipeline.Value
import Idealize.ShloMosaic.Lib.ValueIdx
import Idealize.ShloMosaic.Lib.ValueLayout

noncomputable section

namespace Cert.KernelIdeal.Bridge

open Cert.KernelIdeal Cert.KernelIdeal.Fns Idealize.ShloMosaic Idealize.ShloMosaic.ValueIdx

/-- The flattened row of batch element `b`, position `s`: 2048 b + s. -/
def row (b : Fin 4) (s : Fin 2048) : Fin 8192 := ⟨2048 * b.val + s.val, by have := b.isLt; have := s.isLt; omega⟩

/-- The activations flattened to [8192, 1024], read at row 2048 b + s, are the activations at (b, s). -/
theorem flat_at (x : S4x2048x1024.Idx → EReal) (h1 : S4x2048x1024.ShapeCasts S8192x1024) (b : Fin 4) (s : Fin 2048)
    (d : Fin 1024) : shapeCast S8192x1024 x h1 (ix2 (row b s) d) = x (ix3 b s d) := by
  refine shapeCast_apply x h1 _ (ix3 b s d) ?_
  rw [Shape.rowMajor_val_three, Shape.rowMajor_val_two]
  show (b.val * 2048 + s.val) * 1024 + d.val = (2048 * b.val + s.val) * 1024 + d.val
  omega

/-- An [8192, 3072] array batched to [4, 2048, 3072], read at (b, s, e), is the array at row 2048 b + s. -/
theorem unflat_at (y : S8192x3072.Idx → EReal) (h2 : S8192x3072.ShapeCasts S4x2048x3072) (b : Fin 4) (s : Fin 2048)
    (e : Fin 3072) : shapeCast S4x2048x3072 y h2 (ix3 b s e) = y (ix2 (row b s) e) := by
  refine shapeCast_apply y h2 _ (ix2 (row b s) e) ?_
  rw [Shape.rowMajor_val_three, Shape.rowMajor_val_two]
  show (2048 * b.val + s.val) * 3072 + e.val = (b.val * 2048 + s.val) * 3072 + e.val
  omega

section Cat

variable (wq wk wv : S1024x1024.Idx → EReal)
  (hc : Shape.Concatenates [S1024x1024, S1024x1024, S1024x1024] S1024x3072 1)

/-- The fused weights' columns 0 … 1023 are the query weights. -/
theorem cat_q (d e : Fin 1024) :
    concatenate S1024x3072 1 [⟨S1024x1024, wq⟩, ⟨S1024x1024, wk⟩, ⟨S1024x1024, wv⟩] hc (ix2 d (qCol e)) = wq (ix2 d e) := by
  refine concatenate_apply_piece (α := EReal) (t := S1024x3072) 1
    [⟨S1024x1024, wq⟩, ⟨S1024x1024, wk⟩, ⟨S1024x1024, wv⟩] hc (ix2 d (qCol e)) 0 (by show (0 : Nat) < 3; omega) S1024x1024 wq rfl rfl 0 rfl
    (ix2 d e) ?_ ?_
  · intro b hb
    match b with
    | ⟨0, _⟩ => rfl
    | ⟨1, _⟩ => exact absurd (Fin.ext rfl) hb
  · show 0 + e.val = (qCol e).val
    unfold qCol
    exact Nat.zero_add _

/-- The fused weights' columns 1024 … 2047 are the key weights. -/
theorem cat_k (d e : Fin 1024) :
    concatenate S1024x3072 1 [⟨S1024x1024, wq⟩, ⟨S1024x1024, wk⟩, ⟨S1024x1024, wv⟩] hc (ix2 d (kCol e)) = wk (ix2 d e) := by
  refine concatenate_apply_piece (α := EReal) (t := S1024x3072) 1
    [⟨S1024x1024, wq⟩, ⟨S1024x1024, wk⟩, ⟨S1024x1024, wv⟩] hc (ix2 d (kCol e)) 1 (by show (1 : Nat) < 3; omega) S1024x1024 wk rfl rfl 1024 rfl
    (ix2 d e) ?_ ?_
  · intro b hb
    match b with
    | ⟨0, _⟩ => rfl
    | ⟨1, _⟩ => exact absurd (Fin.ext rfl) hb
  · show 1024 + e.val = (kCol e).val
    unfold kCol
    rfl

/-- The fused weights' columns 2048 … 3071 are the value weights. -/
theorem cat_v (d e : Fin 1024) :
    concatenate S1024x3072 1 [⟨S1024x1024, wq⟩, ⟨S1024x1024, wk⟩, ⟨S1024x1024, wv⟩] hc (ix2 d (vCol e)) = wv (ix2 d e) := by
  refine concatenate_apply_piece (α := EReal) (t := S1024x3072) 1
    [⟨S1024x1024, wq⟩, ⟨S1024x1024, wk⟩, ⟨S1024x1024, wv⟩] hc (ix2 d (vCol e)) 2 (by show (2 : Nat) < 3; omega) S1024x1024 wv rfl rfl 2048 rfl
    (ix2 d e) ?_ ?_
  · intro b hb
    match b with
    | ⟨0, _⟩ => rfl
    | ⟨1, _⟩ => exact absurd (Fin.ext rfl) hb
  · show 2048 + e.val = (vCol e).val
    unfold vCol
    rfl

end Cat

section Proj

variable (x : S4x2048x1024.Idx → EReal) (wq wk wv : S1024x1024.Idx → EReal)
  (h1 : S4x2048x1024.ShapeCasts S8192x1024) (h2 : S8192x3072.ShapeCasts S4x2048x3072)
  (hc : Shape.Concatenates [S1024x1024, S1024x1024, S1024x1024] S1024x3072 1)

/-- Feature `e` of the queries of (b, s) in the fused, batched projections is the query projection of row (b, s). -/
theorem qkv_q (b : Fin 4) (s : Fin 2048) (e : Fin 1024) :
    shapeCast S4x2048x3072 (projArr (shapeCast S8192x1024 x h1)
        (concatenate S1024x3072 1 [⟨S1024x1024, wq⟩, ⟨S1024x1024, wk⟩, ⟨S1024x1024, wv⟩] hc)) h2 (ix3 b s (qCol e))
      = Cert.AttnSpec.proj (fun d => x (ix3 b s d)) (fun d e => wq (ix2 d e)) e := by
  rw [unflat_at]
  unfold projArr Cert.AttnSpec.proj
  refine Finset.sum_congr rfl fun k _ => ?_
  exact congrArg₂ (· * ·) (flat_at x h1 b s k) (cat_q wq wk wv hc k e)

/-- Likewise the keys. -/
theorem qkv_k (b : Fin 4) (s : Fin 2048) (e : Fin 1024) :
    shapeCast S4x2048x3072 (projArr (shapeCast S8192x1024 x h1)
        (concatenate S1024x3072 1 [⟨S1024x1024, wq⟩, ⟨S1024x1024, wk⟩, ⟨S1024x1024, wv⟩] hc)) h2 (ix3 b s (kCol e))
      = Cert.AttnSpec.proj (fun d => x (ix3 b s d)) (fun d e => wk (ix2 d e)) e := by
  rw [unflat_at]
  unfold projArr Cert.AttnSpec.proj
  refine Finset.sum_congr rfl fun k _ => ?_
  exact congrArg₂ (· * ·) (flat_at x h1 b s k) (cat_k wq wk wv hc k e)

/-- Likewise the values. -/
theorem qkv_v (b : Fin 4) (s : Fin 2048) (e : Fin 1024) :
    shapeCast S4x2048x3072 (projArr (shapeCast S8192x1024 x h1)
        (concatenate S1024x3072 1 [⟨S1024x1024, wq⟩, ⟨S1024x1024, wk⟩, ⟨S1024x1024, wv⟩] hc)) h2 (ix3 b s (vCol e))
      = Cert.AttnSpec.proj (fun d => x (ix3 b s d)) (fun d e => wv (ix2 d e)) e := by
  rw [unflat_at]
  unfold projArr Cert.AttnSpec.proj
  refine Finset.sum_congr rfl fun k _ => ?_
  exact congrArg₂ (· * ·) (flat_at x h1 b s k) (cat_v wq wk wv hc k e)

/-- The kernel's two regions, composed through the host's reshapes and concatenation, compute the specification with
    the product by 2⁻⁵ as the scaling. -/
theorem bridge :
    attnArr (shapeCast S4x2048x3072
        (projArr (shapeCast S8192x1024 x h1)
          (concatenate S1024x3072 1 [⟨S1024x1024, wq⟩, ⟨S1024x1024, wk⟩, ⟨S1024x1024, wv⟩] hc)) h2)
      = Cert.AttnSpec.outArr Cert.AttnSpec.scaleMul x wq wk wv := by
  funext i
  obtain ⟨b, q, d, rfl⟩ : ∃ (b : Fin 4) (q : Fin 2048) (d : Fin 1024), i = ix3 b q d := ⟨_, _, _, eq_ix3 i⟩
  have hQ := fun e => qkv_q x wq wk wv h1 h2 hc b q e
  have hK := fun j e => qkv_k x wq wk wv h1 h2 hc b j e
  have hV := fun j e => qkv_v x wq wk wv h1 h2 hc b j e
  generalize shapeCast S4x2048x3072 (projArr (shapeCast S8192x1024 x h1)
      (concatenate S1024x3072 1 [⟨S1024x1024, wq⟩, ⟨S1024x1024, wk⟩, ⟨S1024x1024, wv⟩] hc)) h2 = qkv at hQ hK hV ⊢
  show Cert.AttnSpec.attend
      (Cert.AttnSpec.score Cert.AttnSpec.scaleMul (fun e : Fin 1024 => qkv (ix3 b q (qCol e)))
        (fun (j : Fin 2048) (e : Fin 1024) => qkv (ix3 b j (kCol e))))
      (fun (j : Fin 2048) (d' : Fin 1024) => qkv (ix3 b j (vCol d'))) d
    = Cert.AttnSpec.attend
      (Cert.AttnSpec.score Cert.AttnSpec.scaleMul (Cert.AttnSpec.proj (fun d => x (ix3 b q d)) (fun d e => wq (ix2 d e)))
        (fun j => Cert.AttnSpec.proj (fun d => x (ix3 b j d)) (fun d e => wk (ix2 d e))))
      (fun j => Cert.AttnSpec.proj (fun d => x (ix3 b j d)) (fun d e => wv (ix2 d e))) d
  rw [show (fun e : Fin 1024 => qkv (ix3 b q (qCol e))) = Cert.AttnSpec.proj (fun d => x (ix3 b q d)) (fun d e => wq (ix2 d e))
        from funext hQ,
      show (fun (j : Fin 2048) (e : Fin 1024) => qkv (ix3 b j (kCol e)))
          = (fun j => Cert.AttnSpec.proj (fun d => x (ix3 b j d)) (fun d e => wk (ix2 d e))) from funext fun j => funext (hK j),
      show (fun (j : Fin 2048) (d' : Fin 1024) => qkv (ix3 b j (vCol d')))
          = (fun j => Cert.AttnSpec.proj (fun d => x (ix3 b j d)) (fun d e => wv (ix2 d e))) from funext fun j => funext (hV j)]

end Proj

end Cert.KernelIdeal.Bridge

end
-- ==== Proof.KernelValue.lean ====
/-
  The idealized kernel's result as one function of its four arguments.

  The run leaves in the result array the attention region's folded write-backs. Unfolding @main from the end:
  the write-backs are the attention function of the batched projections (the blocks of the 4 × 8 grid tile the array);
  the batched projections are the reshape of the fused projections; those are the projection function of the flattened
  activations and the fused weights (the 16 row blocks tile the array); the flattened activations are the reshape of
  the activations and the fused weights the concatenation of the three weight matrices. Composed, and read through the
  reshapes (flattened row 2048·b + s is row s of batch b) and the concatenation (columns 0…1023, 1024…2047,
  2048…3071 are the query, key and value weights), this is the attention of the projected queries over the projected
  keys and values, with scores scaled by the factor 2⁻⁵.
-/
import proofs.«163901_j65481071395957_2_alg».proof.Proof.KernelIdeal.Run
import proofs.«163901_j65481071395957_2_alg».proof.Proof.ProjValue
import proofs.«163901_j65481071395957_2_alg».proof.Proof.AttnValue
import proofs.«163901_j65481071395957_2_alg».proof.Proof.Bridge
import Idealize.ShloMosaic.Lib.StableHlo.Run
import Idealize.ShloMosaic.PureOps.Ideal

set_option maxRecDepth 16384

noncomputable section

namespace Cert.KernelIdeal.KernelValue

open Cert.KernelIdeal Cert.KernelIdeal.Gen Cert.KernelIdeal.Hand Cert.KernelIdeal.Fns
open Idealize.ShloMosaic Idealize.ShloMosaic.TcCoe Idealize.SL.Sem Idealize.ShloMosaic.StableHlo

variable (m : (ℓ : Loc nD τ sig) → Buf (Elt Ideal) ℓ) (ρ : Dev nD → PrngReg)

/-- The projection region finds the activations flattened to [8192, 1024]. -/
theorem flat_act (c : Dev nD) : (E1 m c main_v1 : S8192x1024.Idx → EReal)
    = shapeCast S8192x1024 (m ((c : Thread nD τ).loc main_arg0)) shapeCasts_S4x2048x1024_S8192x1024 := by
  show StableHlo.after hostOps0 (Gen.V0 m c) (Proc.devRef .tc main_v1) = _
  after_results
  rfl

/-- The projection region finds the three weight matrices side by side in one [1024, 3072] matrix. -/
theorem fused_w (c : Dev nD) : (E1 m c main_v0 : S1024x3072.Idx → EReal)
    = concatenate S1024x3072 1 [⟨S1024x1024, m ((c : Thread nD τ).loc main_arg1)⟩, ⟨S1024x1024, m ((c : Thread nD τ).loc main_arg2)⟩,
        ⟨S1024x1024, m ((c : Thread nD τ).loc main_arg3)⟩] concatenates_S1024x1024_S1024x1024_S1024x1024_S1024x3072_d1 := by
  show StableHlo.after hostOps0 (Gen.V0 m c) (Proc.devRef .tc main_v0) = _
  after_results
  rfl

/-- The attention region finds the projection region's result batched to [4, 2048, 3072]. -/
theorem batched (c : Dev nD) : (E3 m c main_v3 : S4x2048x3072.Idx → EReal)
    = shapeCast S4x2048x3072 (W2 m c (Proc.devRef .tc main_v2)) shapeCasts_S8192x3072_S4x2048x3072 := by
  show StableHlo.after hostOps1 (W2 m c) (Proc.devRef .tc main_v3) = _
  after_results
  rfl

/-- The projection region leaves the projection function of what it found. -/
theorem fused_proj (c : Dev nD) : (W2 m c (Proc.devRef .tc main_v2) : S8192x3072.Idx → EReal)
    = projArr (E1 m c main_v1) (E1 m c main_v0) :=
  (W2_arr m c 2).trans (Cert.KernelIdeal.ProjValue.proj_final (E1 m) c)

/-- The result array after the run, as one function of the four arguments. -/
theorem result_eq (c : Dev nD) : (result m c : S4x2048x1024.Idx → EReal)
    = Cert.AttnSpec.outArr Cert.AttnSpec.scaleMul (m ((c : Thread nD τ).loc main_arg0)) (m ((c : Thread nD τ).loc main_arg1))
        (m ((c : Thread nD τ).loc main_arg2)) (m ((c : Thread nD τ).loc main_arg3)) := by
  unfold result
  rw [Cert.KernelIdeal.AttnValue.attn_final (E3 m) c, batched m c, fused_proj m c, flat_act m c, fused_w m c]
  exact Cert.KernelIdeal.Bridge.bridge _ _ _ _ _ _ _

/-- THE KERNEL'S RUN, READ: every weakly fair execution terminates with the result array at the attention function of the
    arguments (scores scaled by 2⁻⁵) and the arguments unchanged. -/
theorem run : θ_run defs (onTc (τ := τ) (main (F := Ideal))) ⟨m, fun _ => 0, ρ⟩ (fun r => ∀ c : Dev nD,
      r.2.mem ((c.tc : Thread nD τ).loc main_v4)
        = Cert.AttnSpec.outArr Cert.AttnSpec.scaleMul (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m c), (h c).2⟩) (Cert.KernelIdeal.Hand.run (F := Ideal) m ρ)

end Cert.KernelIdeal.KernelValue

end
-- ==== Proof.RefValue.lean ====
/-
  The reference program computes the specification (Spec.lean), index by index, over the extended reals.

  Read at an output index (b, q, d), one operation at a time, the reference is:
    three projections, each entry a sum over the 1024 input features (`proj`);
    a score, the contraction of a projected query row with a projected key row over the 1024 features, divided by
      √1024 (`score scaleDiv`);
    the row's maximum over the 2048 keys, folded from −∞ and taken once more against −∞ (`rowMax`);
    the shifted exponentials `exp (s j − m)` (`expRow`), their sum over the keys from the initial value 0, and the
      quotient of each by that sum (`weight`);
    the sum over the keys of the weights times the projected values' feature d (`attend`).
  Each stage lemma below states one of these at explicit coordinates (b : Fin 4, q j : Fin 2048, d e : Fin 1024); the
  indices the operations read their operands at are identified with the coordinate triples and pairs case by case on
  the axis. The maximum over the keys is a reduction over one axis with a commutative and associative body, hence the
  fold of `max` over that axis's coordinates. `val_eq` puts the stages together; `run_spec` restates the reference's
  run with the specification in place of the composed term.
-/
import proofs.«163901_j65481071395957_2_alg».proof.Proof.Gen.ReferenceIdeal.Read
import proofs.«163901_j65481071395957_2_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.AttnSpec

variable (x0 : (⟨S4x2048x1024, .f32⟩ : BufTy).Contents (Elt Ideal)) (x1 x2 x3 : (⟨S1024x1024, .f32⟩ : BufTy).Contents (Elt Ideal))

/-- A projection's entry: the sum over the 1024 input features. -/
theorem v0_at (b : Fin 4) (s : Fin 2048) (e : Fin 1024) :
    val_main_v0 (F := Ideal) x0 x1 (ix3 b s e) = proj (fun d => x0 (ix3 b s d)) (fun d e => x1 (ix2 d e)) e := by
  rw [val_main_v0_apply]
  unfold proj
  refine Finset.sum_congr rfl fun k _ => ?_
  have el : lidx_main_v0 (ix3 b s e) k = ix3 b s k :=
    funext fun a => by match a with | ⟨0, _⟩ => rfl | ⟨1, _⟩ => rfl | ⟨2, _⟩ => rfl
  have er : ridx_main_v0 (ix3 b s e) k = ix2 k e :=
    funext fun a => by match a with | ⟨0, _⟩ => rfl | ⟨1, _⟩ => rfl
  rw [el, er]

theorem v1_at (b : Fin 4) (s : Fin 2048) (e : Fin 1024) :
    val_main_v1 (F := Ideal) x0 x2 (ix3 b s e) = proj (fun d => x0 (ix3 b s d)) (fun d e => x2 (ix2 d e)) e := by
  rw [val_main_v1_apply]
  unfold proj
  refine Finset.sum_congr rfl fun k _ => ?_
  have el : lidx_main_v1 (ix3 b s e) k = ix3 b s k :=
    funext fun a => by match a with | ⟨0, _⟩ => rfl | ⟨1, _⟩ => rfl | ⟨2, _⟩ => rfl
  have er : ridx_main_v1 (ix3 b s e) k = ix2 k e :=
    funext fun a => by match a with | ⟨0, _⟩ => rfl | ⟨1, _⟩ => rfl
  rw [el, er]

theorem v2_at (b : Fin 4) (s : Fin 2048) (e : Fin 1024) :
    val_main_v2 (F := Ideal) x0 x3 (ix3 b s e) = proj (fun d => x0 (ix3 b s d)) (fun d e => x3 (ix2 d e)) e := by
  rw [val_main_v2_apply]
  unfold proj
  refine Finset.sum_congr rfl fun k _ => ?_
  have el : lidx_main_v2 (ix3 b s e) k = ix3 b s k :=
    funext fun a => by match a with | ⟨0, _⟩ => rfl | ⟨1, _⟩ => rfl | ⟨2, _⟩ => rfl
  have er : ridx_main_v2 (ix3 b s e) k = ix2 k e :=
    funext fun a => by match a with | ⟨0, _⟩ => rfl | ⟨1, _⟩ => rfl
  rw [el, er]

/-- A scaled score: the contraction of a projected query row with a projected key row, divided by √1024. -/
theorem v6_at (b : Fin 4) (q j : Fin 2048) :
    val_main_v6 (F := Ideal) x0 x1 x2 (ix3 b q j)
      = score scaleDiv (proj (fun d => x0 (ix3 b q d)) (fun d e => x1 (ix2 d e)))
          (fun j => proj (fun d => x0 (ix3 b j d)) (fun d e => x2 (ix2 d e))) j := by
  rw [val_main_v6_apply, val_main_v3_apply, val_main_v5_apply, val_main_v4_apply, val_main_cst_apply]
  unfold score scaleDiv
  rw [Ideal.hostDivf_def, Ideal.hostUnary_sqrt_def, Ideal.ofBits_def]
  refine congrArg (fun t => Ideal.div t _) (Finset.sum_congr rfl fun k _ => ?_)
  have el : lidx_main_v3 (ix3 b q j) k = ix3 b q k :=
    funext fun a => by match a with | ⟨0, _⟩ => rfl | ⟨1, _⟩ => rfl | ⟨2, _⟩ => rfl
  have er : ridx_main_v3 (ix3 b q j) k = ix3 b j k :=
    funext fun a => by match a with | ⟨0, _⟩ => rfl | ⟨1, _⟩ => rfl | ⟨2, _⟩ => rfl
  rw [el, er, v0_at, v1_at]

/-- The last axis of a [4, 2048, 2048] array is reduced away into [4, 2048]. -/
theorem reduces_d2 : S4x2048x2048.Reduces [2] S4x2048 := by decide

/-- The row index (b, q) with key coordinate `k` put back is (b, q, k). -/
theorem lift_d2 (b : Fin 4) (q : Fin 2048) (k : Fin (S4x2048x2048.size 2)) :
    reduces_d2.lift (ix2 b q) k = ix3 b q (⟨k.val, k.isLt⟩ : Fin 2048) := by
  funext c; apply Fin.ext
  match c with | ⟨0, _⟩ => rfl | ⟨1, _⟩ => rfl | ⟨2, _⟩ => rfl

/-- The host's maximum over the keys, from −∞, is the fold of `max` over the 2048 scores of the row. -/
theorem v7_at (b : Fin 4) (q : Fin 2048) :
    val_main_v7 (F := Ideal) x0 x1 x2 (ix2 b q)
      = (Finset.univ : Finset (Fin 2048)).fold max negInf (fun j => val_main_v6 (F := Ideal) x0 x1 x2 (ix3 b q j)) := by
  unfold val_main_v7
  generalize val_main_v6 (F := Ideal) x0 x1 x2 = y
  refine (Host.reduce_eq_fold_single _ y _ _ reduces_d2 _ (ix2 b q)).trans ?_
  have hf : (y ∘ reduces_d2.lift (ix2 b q)) = fun j : Fin 2048 => y (ix3 b q j) :=
    funext fun k => congrArg y (lift_d2 b q k)
  exact congrArg (fun f => Finset.fold max negInf f (Finset.univ : Finset (Fin 2048))) hf

/-- The row maximum the reference subtracts: the maximum of −∞ and the fold. -/
theorem v9_at (b : Fin 4) (q : Fin 2048) :
    val_main_v9 (F := Ideal) x0 x1 x2 (ix2 b q)
      = rowMax (fun j => val_main_v6 (F := Ideal) x0 x1 x2 (ix3 b q j)) := by
  rw [val_main_v9_apply, val_main_v8_apply, val_main_cst_1_apply, v7_at]
  rfl

/-- A shifted exponential. -/
theorem v13_at (b : Fin 4) (q j : Fin 2048) :
    val_main_v13 (F := Ideal) x0 x1 x2 (ix3 b q j)
      = expRow (fun j => val_main_v6 (F := Ideal) x0 x1 x2 (ix3 b q j)) j := by
  rw [val_main_v13_apply, val_main_v12_apply, val_main_v11_apply, val_main_v10_apply]
  have e : idx_main_v10 (idx_main_v11 (ix3 b q j)) = ix2 b q :=
    funext fun a => by match a with | ⟨0, _⟩ => rfl | ⟨1, _⟩ => rfl
  rw [e, v9_at]
  rfl

/-- The row's sum of shifted exponentials. -/
theorem v14_at (b : Fin 4) (q : Fin 2048) :
    val_main_v14 (F := Ideal) x0 x1 x2 (ix2 b q)
      = ∑ j : Fin 2048, expRow (fun j => val_main_v6 (F := Ideal) x0 x1 x2 (ix3 b q j)) j := by
  rw [val_main_v14_apply, val_main_cst_2_apply, Ideal.ofBits_def, Ideal.ofBits_zero_f32, zero_add]
  refine Finset.sum_congr rfl fun k _ => ?_
  have e : idx_main_v14 (ix2 b q) k = ix3 b q k :=
    funext fun a => by match a with | ⟨0, _⟩ => rfl | ⟨1, _⟩ => rfl | ⟨2, _⟩ => rfl
  rw [e, v13_at]

/-- A softmax weight. -/
theorem v17_at (b : Fin 4) (q j : Fin 2048) :
    val_main_v17 (F := Ideal) x0 x1 x2 (ix3 b q j)
      = weight (fun j => val_main_v6 (F := Ideal) x0 x1 x2 (ix3 b q j)) j := by
  rw [val_main_v17_apply, val_main_v16_apply, val_main_v15_apply]
  have e : idx_main_v15 (idx_main_v16 (ix3 b q j)) = ix2 b q :=
    funext fun a => by match a with | ⟨0, _⟩ => rfl | ⟨1, _⟩ => rfl
  rw [e, v14_at, v13_at]
  rfl

/-- The reference's result at (b, q, d) is the specification there. -/
theorem v18_at (b : Fin 4) (q : Fin 2048) (d : Fin 1024) :
    val_main_v18 (F := Ideal) x0 x1 x2 x3 (ix3 b q d)
      = out scaleDiv (fun b s d => x0 (ix3 b s d)) (fun d e => x1 (ix2 d e)) (fun d e => x2 (ix2 d e))
          (fun d e => x3 (ix2 d e)) b q d := by
  rw [val_main_v18_apply]
  unfold out attend
  refine Finset.sum_congr rfl fun k _ => ?_
  have el : lidx_main_v18 (ix3 b q d) k = ix3 b q k :=
    funext fun a => by match a with | ⟨0, _⟩ => rfl | ⟨1, _⟩ => rfl | ⟨2, _⟩ => rfl
  have er : ridx_main_v18 (ix3 b q d) k = ix3 b k d :=
    funext fun a => by match a with | ⟨0, _⟩ => rfl | ⟨1, _⟩ => rfl | ⟨2, _⟩ => rfl
  rw [el, er, v17_at, v2_at]
  have hs : (fun j => val_main_v6 (F := Ideal) x0 x1 x2 (ix3 b q j))
      = score scaleDiv (proj (fun d => x0 (ix3 b q d)) (fun d e => x1 (ix2 d e)))
          (fun j => proj (fun d => x0 (ix3 b j d)) (fun d e => x2 (ix2 d e))) :=
    funext fun j => v6_at x0 x1 x2 b q j
  rw [hs]

/-- The stage the reference's result is, as a function of the four arguments, is the specification. -/
theorem val_eq : val_main_v18 (F := Ideal) x0 x1 x2 x3 = outArr scaleDiv x0 x1 x2 x3 := by
  funext i
  obtain ⟨b, q, d, rfl⟩ : ∃ (b : Fin 4) (q : Fin 2048) (d : Fin 1024), i = ix3 b q d := ⟨_, _, _, eq_ix3 i⟩
  exact v18_at x0 x1 x2 x3 b q d

/-- The reference run's result term, of the four argument arrays, at any float instance. -/
def refTerm {F : FTy → Type} [FloatOps F] (x0 : (⟨S4x2048x1024, .f32⟩ : BufTy).Contents (Elt F))
    (x1 x2 x3 : (⟨S1024x1024, .f32⟩ : BufTy).Contents (Elt F)) : (⟨S4x2048x1024, .f32⟩ : BufTy).Contents (Elt F) :=
  Host.dotGeneral dot_S4x2048x2048_S4x2048x1024_S4x2048x1024_2_1_1_2_0_0 none (Host.divf (Host.exp (subf (Host.divf (Host.dotGeneral dot_S4x2048x1024_S4x2048x1024_S4x2048x2048_2_2_1_1_0_0 none (Host.dotGeneral dot_S4x2048x1024_S1024x1024_S4x2048x1024_2_0_01_1_n_n none (x0) (x1)) (Host.dotGeneral dot_S4x2048x1024_S1024x1024_S4x2048x1024_2_0_01_1_n_n none (x0) (x2))) (broadcastInDim S4x2048x2048 ![] bcast_S_S4x2048x2048 (Host.sqrt (constant S_ .f32 0x44800000#32)))) (broadcastInDim S4x2048x2048 ![0, 1, 2] bcast_S4x2048x1_S4x2048x2048_0_1_2 (broadcastInDim S4x2048x1 ![0, 1] bcast_S4x2048_S4x2048x1_0_1 (maximumf (broadcastInDim S4x2048 ![] bcast_S_S4x2048 (constant S_ .f32 0xFF800000#32)) (Host.reduce FloatOps.maximumf (Host.divf (Host.dotGeneral dot_S4x2048x1024_S4x2048x1024_S4x2048x2048_2_2_1_1_0_0 none (Host.dotGeneral dot_S4x2048x1024_S1024x1024_S4x2048x1024_2_0_01_1_n_n none (x0) (x1)) (Host.dotGeneral dot_S4x2048x1024_S1024x1024_S4x2048x1024_2_0_01_1_n_n none (x0) (x2))) (broadcastInDim S4x2048x2048 ![] bcast_S_S4x2048x2048 (Host.sqrt (constant S_ .f32 0x44800000#32)))) (constant S_ .f32 0xFF800000#32) reducesTo_S4x2048x2048_S4x2048_d2 h_S_)))))) (broadcastInDim S4x2048x2048 ![0, 1, 2] bcast_S4x2048x1_S4x2048x2048_0_1_2 (broadcastInDim S4x2048x1 ![0, 1] bcast_S4x2048_S4x2048x1_0_1 (Host.reduceAdd (Host.exp (subf (Host.divf (Host.dotGeneral dot_S4x2048x1024_S4x2048x1024_S4x2048x2048_2_2_1_1_0_0 none (Host.dotGeneral dot_S4x2048x1024_S1024x1024_S4x2048x1024_2_0_01_1_n_n none (x0) (x1)) (Host.dotGeneral dot_S4x2048x1024_S1024x1024_S4x2048x1024_2_0_01_1_n_n none (x0) (x2))) (broadcastInDim S4x2048x2048 ![] bcast_S_S4x2048x2048 (Host.sqrt (constant S_ .f32 0x44800000#32)))) (broadcastInDim S4x2048x2048 ![0, 1, 2] bcast_S4x2048x1_S4x2048x2048_0_1_2 (broadcastInDim S4x2048x1 ![0, 1] bcast_S4x2048_S4x2048x1_0_1 (maximumf (broadcastInDim S4x2048 ![] bcast_S_S4x2048 (constant S_ .f32 0xFF800000#32)) (Host.reduce FloatOps.maximumf (Host.divf (Host.dotGeneral dot_S4x2048x1024_S4x2048x1024_S4x2048x2048_2_2_1_1_0_0 none (Host.dotGeneral dot_S4x2048x1024_S1024x1024_S4x2048x1024_2_0_01_1_n_n none (x0) (x1)) (Host.dotGeneral dot_S4x2048x1024_S1024x1024_S4x2048x1024_2_0_01_1_n_n none (x0) (x2))) (broadcastInDim S4x2048x2048 ![] bcast_S_S4x2048x2048 (Host.sqrt (constant S_ .f32 0x44800000#32)))) (constant S_ .f32 0xFF800000#32) reducesTo_S4x2048x2048_S4x2048_d2 h_S_)))))) (constant S_ .f32 0x00000000#32) reducesTo_S4x2048x2048_S4x2048_d2 h_S_)))) (Host.dotGeneral dot_S4x2048x1024_S1024x1024_S4x2048x1024_2_0_01_1_n_n none (x0) (x3))

/-- The run's term is the last stage. -/
theorem refTerm_eq : refTerm (F := Ideal) x0 x1 x2 x3 = val_main_v18 (F := Ideal) x0 x1 x2 x3 :=
  val_main_v18_eq (F := Ideal) x0 x1 x2 x3

/-- The reference's result array is the specification's, with the quotient by √1024 as the scaling. -/
theorem ref_eq : refTerm (F := Ideal) x0 x1 x2 x3 = outArr scaleDiv x0 x1 x2 x3 :=
  (refTerm_eq x0 x1 x2 x3).trans (val_eq x0 x1 x2 x3)

/-- Every weakly fair execution of the reference ends with its result array at the specification of the
    arguments' launch contents, the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
          = outArr scaleDiv (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_eq _ _ _ _), (h c).2⟩)
    (Cert.ReferenceIdeal.Value.run (F := Ideal) m ρ)

end Cert.ReferenceIdeal.RefValue

end
-- ==== Proof.lean ====
/-
  The certificate: a Pallas attention kernel (a fused Q/K/V projection launch, then an attention launch over a 4 × 8
  grid) against its jnp reference, equal over the extended reals.

  Both programs compute, for a batch element b, a query position q and a feature d,
      ∑ⱼ softmaxⱼ(scale(Q[b,q]·K[b,j])) · V[b,j,d],     Q = x·Wq, K = x·Wk, V = x·Wv,
  the softmax taken with the row maximum subtracted. The kernel scales a score by the factor 2⁻⁵; the reference divides
  it by √1024 = 32: one function on every extended real (Proof/Spec.lean `scale_eq`), so the precondition's finiteness
  is not used.
  The kernel side: the frame and the run of the two launches at any float instance (Proof/KernelIdeal/, and the same text
  at the word-level instance, Proof/Kernel/); each launch's written-back blocks tile its output array, so each result
  is one whole-array function (Proof/ProjValue.lean, Proof/AttnValue.lean over the bodies' arithmetic read at an index,
  Proof/Payloads.lean); the reshapes and the concatenation between them read at an index (Proof/Bridge.lean); composed in
  Proof/KernelValue.lean. The reference side: its generated run read operation by operation (Proof/RefValue.lean).
-/
import proofs.«163901_j65481071395957_2_alg».proof.Defs
import proofs.«163901_j65481071395957_2_alg».proof.Proof.Gen.Kernel
import proofs.«163901_j65481071395957_2_alg».proof.Proof.Gen.KernelIdeal
import proofs.«163901_j65481071395957_2_alg».proof.Proof.Gen.ReferenceIdeal
import proofs.«163901_j65481071395957_2_alg».proof.Proof.Gen.Pre_finite_inputs
import proofs.«163901_j65481071395957_2_alg».proof.Proof.Gen.ReferenceIdeal.Run
import proofs.«163901_j65481071395957_2_alg».proof.Proof.Gen.ReferenceIdeal.Read
import proofs.«163901_j65481071395957_2_alg».proof.Proof.Kernel.Run
import proofs.«163901_j65481071395957_2_alg».proof.Proof.KernelValue
import proofs.«163901_j65481071395957_2_alg».proof.Proof.RefValue
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_kernel : Cert.frame_Kernel := fun m ρ _ =>
  (θ_run Cert.Kernel.defs _ _).mono (fun _ h c => (h c).2) (Cert.Kernel.Hand.run (F := Bits) m ρ)

/-- So does its idealization. -/
theorem frame_kernelIdeal : Cert.frame_KernelIdeal := fun m ρ _ =>
  (θ_run Cert.KernelIdeal.defs _ _).mono (fun _ h c => (h c).2) (Cert.KernelIdeal.Hand.run (F := Ideal) m ρ)

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read over the extended reals. -/
theorem preserves : Cert.preserves_Kernel_KernelIdeal := trivial

/-- From memories agreeing on the arguments both programs end with the same result: the attention function of the
    arguments, the kernel's with scores times 2⁻⁵, the reference's with scores over √1024 — one scaling. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2, Cert.AttnSpec.scale_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
